-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S1 : Shape := ⟨1, ![1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S1 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1 .f32 := Host.absf main_arg7
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8192x4096 .f32) (main_arg1 : IVec S11008x4096 32) (main_arg2 : IVec S11008x4096 32) (main_arg3 : IVec S4096x11008 32) (main_arg4 : FVec F S11008 .f32) (main_arg5 : FVec F S11008 .f32) (main_arg6 : FVec F S4096 .f32) (main_arg7 : FVec F S1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008 .f32 := Host.absf main_arg4
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg5
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg7 main_v13 main_v16
-- ==== Kernel.lean ====
abbrev S8192x4096 : Shape := ⟨2, ![8192, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S1 : Shape := ⟨1, ![1]⟩
abbrev S1x11008 : Shape := ⟨2, ![1, 11008]⟩
abbrev S1x4096 : Shape := ⟨2, ![1, 4096]⟩
abbrev S1x1 : Shape := ⟨2, ![1, 1]⟩
abbrev S256x4096 : Shape := ⟨2, ![256, 4096]⟩
abbrev S128x4096 : Shape := ⟨2, ![128, 4096]⟩
abbrev S4096x128 : Shape := ⟨2, ![4096, 128]⟩
abbrev S1x128 : Shape := ⟨2, ![1, 128]⟩
abbrev S256x1 : Shape := ⟨2, ![256, 1]⟩
abbrev S256 : Shape := ⟨1, ![256]⟩
abbrev S256x128 : Shape := ⟨2, ![256, 128]⟩

abbrev nBuf : Space → Nat
  | .hbm => 13
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S11008x4096, .i32⟩
  | .hbm, ⟨2, _⟩ => ⟨S11008x4096, .i32⟩
  | .hbm, ⟨3, _⟩ => ⟨S4096x11008, .i32⟩
  | .hbm, ⟨4, _⟩ => ⟨S11008, .f32⟩
  | .hbm, ⟨5, _⟩ => ⟨S11008, .f32⟩
  | .hbm, ⟨6, _⟩ => ⟨S4096, .f32⟩
  | .hbm, ⟨7, _⟩ => ⟨S1, .f32⟩
  | .hbm, ⟨8, _⟩ => ⟨S1x11008, .f32⟩
  | .hbm, ⟨9, _⟩ => ⟨S1x11008, .f32⟩
  | .hbm, ⟨10, _⟩ => ⟨S1x4096, .f32⟩
  | .hbm, ⟨11, _⟩ => ⟨S1x1, .f32⟩
  | .hbm, ⟨12, _⟩ => ⟨S8192x4096, .f32⟩
  | .local _ .vmem, ⟨0, _⟩ => ⟨S256x4096, .f32⟩
  | .local _ .vmem, ⟨1, _⟩ => ⟨S128x4096, .i32⟩
  | .local _ .vmem, ⟨2, _⟩ => ⟨S128x4096, .i32⟩
  | .local _ .vmem, ⟨3, _⟩ => ⟨S128x4096, .i32⟩
  | .local _ .vmem, ⟨4, _⟩ => ⟨S128x4096, .i32⟩
  | .local _ .vmem, ⟨5, _⟩ => ⟨S4096x128, .i32⟩
  | .local _ .vmem, ⟨6, _⟩ => ⟨S4096x128, .i32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x4096, .f32⟩
  | .local _ .vmem, ⟨12, _⟩ => ⟨S1x1, .f32⟩
  | .local _ .vmem, ⟨13, _⟩ => ⟨S256x4096, .f32⟩
  | .local _ .vmem, ⟨14, _⟩ => ⟨S256x4096, .f32⟩
  | .local _ .vmem, ⟨15, _⟩ => ⟨S256x4096, .bf16⟩
  | .local _ .vmem, ⟨16, _⟩ => ⟨S256x1, .f32⟩
  | .local _ .vmem, ⟨17, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 86], ![false, false]⟩

def k0_cond2 (i : grid0.Coords) : BitVec 1 :=
  let arg1 : BitVec 32 := BitVec.ofNat 32 (i 1).val
  let c85_i32 : BitVec 32 := 85#32
  let v44 : BitVec 1 := Scalar.cmpi .eq arg1 c85_i32
  let v45 : BitVec 32 := Scalar.extui v44
  let c0_i32_24 : BitVec 32 := 0#32
  let v46 : BitVec 1 := Scalar.cmpi .ne v45 c0_i32_24
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S11008_S1x11008 : S11008.ShapeCasts S1x11008
  shapeCasts_S4096_S1x4096 : S4096.ShapeCasts S1x4096
  shapeCasts_S1_S1x1 : S1.ShapeCasts S1x1
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S128x4096_S128x4096_0_0 : ∀ a, (![0, 0] : Fin 2 → Nat) a + S128x4096.size a ≤ S128x4096.size a
  h_S128x4096 : 0 < S128x4096.numel
  broadcasts_S256x1_S256x128 : S256x1.Broadcasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4096x128_S4096x128_0_0 : ∀ a, (![0, 0] : Fin 2 → Nat) a + S4096x128.size a ≤ S4096x128.size a
  h_S4096x128 : 0 < S4096x128.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x4096_S128x4096_S256x128_1_1_0_0_n_n_wf : DotDims.WF S256x4096 S128x4096 S256x128 [1] [1] [0] [0] [] []
  dot_S256x128_S4096x128_S256x4096_1_1_0_0_n_n_wf : DotDims.WF S256x128 S4096x128 S256x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .i32 = 32 ∨ (Rect.block (s := S11008x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S11008x4096.size a
  hwx0_2 : ∀ i : grid0.Coords, EltTy.bits .i32 = 32 ∨ (Rect.block (s := S11008x4096) S128x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x11008.size a
  hwx0_3 : ∀ i : grid0.Coords, EltTy.bits .i32 = 32 ∨ (Rect.block (s := S4096x11008) S4096x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x11008.size a
  hwx0_4 : ∀ i : grid0.Coords, EltTy.bits .f32 = 32 ∨ (Rect.block (s := S1x11008) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x11008.size a
  hwx0_5 : ∀ i : grid0.Coords, EltTy.bits .f32 = 32 ∨ (Rect.block (s := S1x11008) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x4096.size a ≤ S8192x4096.size a
  hwx0_8 : ∀ i : grid0.Coords, EltTy.bits .f32 = 32 ∨ (Rect.block (s := S8192x4096) S256x4096.size (cc0_transform_8 i) (hinb0_8 i)).WholeWords (EltTy.packing .f32)

variable [Facts₀]

def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf

abbrev win0_0 : Pipeline.Window sig grid0 :=
  Pipeline.Window.ofSpec (Memref.whole main_arg0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S256x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8192x4096 : Shape := ⟨2, ![8192, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S1 : Shape := ⟨1, ![1]⟩
abbrev S_ : Shape := ⟨0, ![]⟩
abbrev S8192 : Shape := ⟨1, ![8192]⟩
abbrev S8192x1 : Shape := ⟨2, ![8192, 1]⟩
abbrev S8192x11008 : Shape := ⟨2, ![8192, 11008]⟩
abbrev S1x11008 : Shape := ⟨2, ![1, 11008]⟩
abbrev S1x4096 : Shape := ⟨2, ![1, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .i32⟩
  | .hbm, ⟨2, _⟩ => ⟨S11008x4096, .i32⟩
  | .hbm, ⟨3, _⟩ => ⟨S4096x11008, .i32⟩
  | .hbm, ⟨4, _⟩ => ⟨S11008, .f32⟩
  | .hbm, ⟨5, _⟩ => ⟨S11008, .f32⟩
  | .hbm, ⟨6, _⟩ => ⟨S4096, .f32⟩
  | .hbm, ⟨7, _⟩ => ⟨S1, .f32⟩
  | .hbm, ⟨8, _⟩ => ⟨S8192x4096, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S11008x4096, .f32⟩
  | .hbm, ⟨30, _⟩ => ⟨S11008x4096, .f32⟩
  | .hbm, ⟨31, _⟩ => ⟨S8192x11008, .f32⟩
  | .hbm, ⟨32, _⟩ => ⟨S8192x11008, .f32⟩
  | .hbm, ⟨33, _⟩ => ⟨S8192x11008, .f32⟩
  | .hbm, ⟨34, _⟩ => ⟨S1x11008, .f32⟩
  | .hbm, ⟨35, _⟩ => ⟨S8192x11008, .f32⟩
  | .hbm, ⟨36, _⟩ => ⟨S8192x11008, .f32⟩
  | .hbm, ⟨37, _⟩ => ⟨S8192x11008, .f32⟩
  | .hbm, ⟨38, _⟩ => ⟨S8192x11008, .f32⟩
  | .hbm, ⟨39, _⟩ => ⟨S8192x11008, .f32⟩
  | .hbm, ⟨40, _⟩ => ⟨S1x11008, .f32⟩
  | .hbm, ⟨41, _⟩ => ⟨S8192x11008, .f32⟩
  | .hbm, ⟨42, _⟩ => ⟨S8192x11008, .f32⟩
  | .hbm, ⟨43, _⟩ => ⟨S8192x11008, .f32⟩
  | .hbm, ⟨44, _⟩ => ⟨S8192x11008, .f32⟩
  | .hbm, ⟨45, _⟩ => ⟨S_, .f32⟩
  | .hbm, ⟨46, _⟩ => ⟨S8192x11008, .f32⟩
  | .hbm, ⟨47, _⟩ => ⟨S8192x11008, .f32⟩
  | .hbm, ⟨48, _⟩ => ⟨S_, .f32⟩
  | .hbm, ⟨49, _⟩ => ⟨S8192x11008, .f32⟩
  | .hbm, ⟨50, _⟩ => ⟨S8192x11008, .f32⟩
  | .hbm, ⟨51, _⟩ => ⟨S8192x11008, .f32⟩
  | .hbm, ⟨52, _⟩ => ⟨S8192x11008, .f32⟩
  | .hbm, ⟨53, _⟩ => ⟨S_, .f32⟩
  | .hbm, ⟨54, _⟩ => ⟨S8192x11008, .f32⟩
  | .hbm, ⟨55, _⟩ => ⟨S8192x11008, .f32⟩
  | .hbm, ⟨56, _⟩ => ⟨S8192x11008, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192x11008, .f32⟩
  | .hbm, ⟨61, _⟩ => ⟨S8192x11008, .f32⟩
  | .hbm, ⟨62, _⟩ => ⟨S_, .f32⟩
  | .hbm, ⟨63, _⟩ => ⟨S8192x11008, .f32⟩
  | .hbm, ⟨64, _⟩ => ⟨S8192x11008, .f32⟩
  | .hbm, ⟨65, _⟩ => ⟨S4096x11008, .f32⟩
  | .hbm, ⟨66, _⟩ => ⟨S8192x4096, .f32⟩
  | .hbm, ⟨67, _⟩ => ⟨S8192x4096, .f32⟩
  | .hbm, ⟨68, _⟩ => ⟨S8192x4096, .f32⟩
  | .hbm, ⟨69, _⟩ => ⟨S1x4096, .f32⟩
  | .hbm, ⟨70, _⟩ => ⟨S8192x4096, .f32⟩
  | .hbm, ⟨71, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_cst_5 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S8192x1_S8192x11008_0_1 : S8192x1.BroadcastsInDim S8192x11008 (![0, 1] : Fin 2 → Fin S8192x11008.rank)
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  bcast_S_S8192x11008 : S_.BroadcastsInDim S8192x11008 (![] : Fin 0 → Fin S8192x11008.rank)
  shapeCasts_S1_S_ : S1.ShapeCasts S_
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S11008x4096_S8192x11008_1_1_0_0_n_n_wf : DotDims.WF S8192x4096 S11008x4096 S8192x11008 [1] [1] [0] [0] [] []
  dot_S8192x11008_S4096x11008_S8192x4096_1_1_0_0_n_n_wf : DotDims.WF S8192x11008 S4096x11008 S8192x4096 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf
def dot_S8192x11008_S4096x11008_S8192x4096_1_1_0_0_n_n : DotDims S8192x11008 S4096x11008 S8192x4096 where
  lhsContracting := [1]
  rhsContracting := [1]
  lhsNonContracting := [0]
  rhsNonContracting := [0]
  lhsBatch := []
  rhsBatch := []
  wf := dot_S8192x11008_S4096x11008_S8192x4096_1_1_0_0_n_n_wf

class Facts : Prop extends Facts₀ where

variable [Facts]
-- ==== Proof.LibTiles.lean ====
/-
  A sum over `T · B` consecutive indices, cut into `T` tiles of `B`, and a running total over tiles.

  `sum_tiles`: index `j < T · B` is `J · B + b` for exactly one tile `J < T` and one offset `b < B`, so the sum over all
  `j` is the sum over tiles of the sums over offsets.  `fold_tiles`: the running total that starts at `0 + a 0` and
  adds `a 1`, `a 2`, … in turn is, after `n` further steps, the sum of `a 0 … a n`.
-/
import Mathlib.Algebra.BigOperators.Fin
import Mathlib.Tactic.Ring

open scoped BigOperators

namespace Tiles

/-- The sum over tiles of the sums inside each tile is the sum over all indices. -/
theorem sum_tiles {M : Type*} [AddCommMonoid M] (T B : ℕ) (f : ℕ → M) :
    ∑ J : Fin T, ∑ b : Fin B, f (J.val * B + b.val) = ∑ j : Fin (T * B), f j.val := by
  rw [← (finProdFinEquiv (m := T) (n := B)).sum_comp (fun j => f j.val), Fintype.sum_prod_type]
  refine Finset.sum_congr rfl fun J _ => Finset.sum_congr rfl fun b _ => ?_
  refine congrArg f ?_
  show J.val * B + b.val = b.val + B * J.val
  ring

/-- The running total over tiles, started from `0 + a 0`, is the sum of the tiles' contributions. -/
theorem fold_tiles {M : Type*} [AddCommMonoid M] (a : ℕ → M) (n : ℕ) :
    (Nat.rec (motive := fun _ => M) (0 + a 0) (fun k x => x + a (k + 1)) n) = ∑ J ∈ Finset.range (n + 1), a J := by
  induction n with
  | zero => simp
  | succ k ih =>
    show (Nat.rec (motive := fun _ => M) (0 + a 0) (fun k x => x + a (k + 1)) k) + a (k + 1) = _
    rw [ih, Finset.sum_range_succ _ (k + 1)]

end Tiles
-- ==== Proof.Spec.lean ====
/-
  The quantised gated network as ONE function of its argument arrays, over the extended reals.

  For a row `x` of 4096 activations: its scale is `s = max (amax · (1/127)) ε` with `amax` the fold of `max` from −∞
  over `|x h| = max (x h) (−x h)`; its quantised entries are `q h = clip (round (x h / s))`, rounding to nearest with
  ties to even and clipping to [−127, 127].  A projection onto an integer weight row `w` is
  `(∑ h, q h · w h) · s · σ` with `σ` the weight row's scale; the hidden entry is `(g · logistic g) · u` of the gate and up
  projections, re-quantised by the given scale `d` as `clip (round (hidden / d))`; the result entry `(r, c)` is
  `(∑ i, qh r i · wd c i) · d · sd c` over the 11008 hidden entries.

  The sum over the 11008 hidden entries is also the sum over 86 tiles of 128 consecutive entries each (`sum_tiles_fin`),
  and a running total that starts at `0 + P 0` and adds `P 1, P 2, …` in turn is the sum of the tiles taken so far
  (`partialAcc`).
-/
import Idealize.ShloMosaic.PureOps.Ideal
import Idealize.ShloMosaic.Lib.ValueIdx
import Idealize.ShloMosaic.PureOps.Ideal.Laws
import proofs.«151012_j71725953843877_1_alg».proof.Proof.LibTiles

noncomputable section

open scoped BigOperators

namespace QMlp

open Idealize.ShloMosaic Idealize.ShloMosaic.ValueIdx

/-- −∞, the value a running maximum starts from. -/
abbrev negInf : EReal := Ideal.ofBits .f32 0xFF800000#32
/-- The floor of a row's scale. -/
abbrev eps : EReal := Ideal.ofBits .f32 0x322BCC77#32
/-- The clip's bounds, −127 and 127. -/
abbrev lo : EReal := Ideal.ofBits .f32 0xC2FE0000#32
abbrev hi : EReal := Ideal.ofBits .f32 0x42FE0000#32
/-- The zero a sum starts from. -/
abbrev zero : EReal := Ideal.ofBits .f32 0x00000000#32

/-- Round to nearest, ties to even, then clip to [−127, 127]. -/
def clipq (v : EReal) : EReal := min hi (max lo (Ideal.liftRound Ideal.roundHalfEven v))

/-- Quantise `v` by the scale `s`. -/
def quant (s v : EReal) : EReal := clipq (Ideal.div v s)

/-- The largest magnitude of a row, from −∞. -/
def rowAmax {n : ℕ} (x : Fin n → EReal) : EReal :=
  (Finset.univ : Finset (Fin n)).fold max negInf (fun h => max (x h) (-(x h)))

/-- A row's scale: its largest magnitude over 127, at least ε. -/
def rowScale {n : ℕ} (x : Fin n → EReal) : EReal := max (rowAmax x * ((1 / 127 : ℝ) : EReal)) eps

/-- A quantised row against an integer weight row, de-quantised by the row's scale and the weight row's scale. -/
def proj {n : ℕ} (q : Fin n → EReal) (w : Fin n → BitVec 32) (s sc : EReal) : EReal :=
  (∑ h : Fin n, q h * (((w h).toInt : ℝ) : EReal)) * s * sc

/-- The gated hidden entry. -/
def hidden (g u : EReal) : EReal := (g * Ideal.logistic g) * u

/-- The re-quantised hidden entry of a quantised row `q` with scale `s`, for one hidden unit: its gate and up weight
    rows and their scales, and the re-quantisation scale `d`. -/
def qhOf {n : ℕ} (q : Fin n → EReal) (s : EReal) (wg wu : Fin n → BitVec 32) (sg su d : EReal) : EReal :=
  quant d (hidden (proj q wg s sg) (proj q wu s su))

section Arrays

variable (X : (⟨2, ![8192, 4096]⟩ : Shape).Idx → EReal)
  (Wg Wu : (⟨2, ![11008, 4096]⟩ : Shape).Idx → BitVec 32) (Wd : (⟨2, ![4096, 11008]⟩ : Shape).Idx → BitVec 32)
  (sg su : (⟨1, ![11008]⟩ : Shape).Idx → EReal) (ds : (⟨1, ![1]⟩ : Shape).Idx → EReal)
  (sd : (⟨1, ![4096]⟩ : Shape).Idx → EReal)

/-- Row `r` of the activations. -/
def xRow (r : Fin 8192) : Fin 4096 → EReal := fun h => X (ix2 r h)
/-- Row `r`'s scale. -/
def scaleAt (r : Fin 8192) : EReal := rowScale (xRow X r)
/-- Row `r` quantised. -/
def qRow (r : Fin 8192) : Fin 4096 → EReal := fun h => quant (scaleAt X r) (X (ix2 r h))
/-- The re-quantised hidden entry `(r, i)`. -/
def qhAt (r : Fin 8192) (i : Fin 11008) : EReal :=
  qhOf (qRow X r) (scaleAt X r) (fun h => Wg (ix2 i h)) (fun h => Wu (ix2 i h)) (sg (ix1 i)) (su (ix1 i)) (ds (ix1 0))
/-- One term of the down projection, as a function of a natural number (zero past the end). -/
def downTerm (r : Fin 8192) (c : Fin 4096) (n : ℕ) : EReal :=
  if h : n < 11008 then qhAt X Wg Wu sg su ds r ⟨n, h⟩ * (((Wd (ix2 c ⟨n, h⟩)).toInt : ℝ) : EReal) else 0
/-- Tile `J`'s contribution to the down projection at `(r, c)`: 128 consecutive hidden entries. -/
def tileSum (r : Fin 8192) (c : Fin 4096) (J : ℕ) : EReal :=
  ∑ k : Fin 128, downTerm X Wg Wu Wd sg su ds r c (J * 128 + k.val)
/-- The accumulator after tiles `0 … j`: it starts at `0 + tile 0` and adds one tile per step. -/
def partialAcc (r : Fin 8192) (c : Fin 4096) : ℕ → EReal
  | 0 => zero + tileSum X Wg Wu Wd sg su ds r c 0
  | j + 1 => partialAcc r c j + tileSum X Wg Wu Wd sg su ds r c (j + 1)
/-- The result entry `(r, c)`. -/
def outAt (r : Fin 8192) (c : Fin 4096) : EReal :=
  (∑ i : Fin 11008, qhAt X Wg Wu sg su ds r i * (((Wd (ix2 c i)).toInt : ℝ) : EReal)) * ds (ix1 0) * sd (ix1 c)
/-- The result array. -/
def G : (⟨2, ![8192, 4096]⟩ : Shape).Idx → EReal := fun j => outAt X Wg Wu Wd sg su ds sd (j 0) (j 1)

theorem G_ix2 (r : Fin 8192) (c : Fin 4096) : G X Wg Wu Wd sg su ds sd (ix2 r c) = outAt X Wg Wu Wd sg su ds sd r c := rfl

theorem zero_eq : zero = 0 := Ideal.ofBits_zero_f32

/-- The accumulator after the last tile is the whole down projection. -/
theorem partialAcc_last (r : Fin 8192) (c : Fin 4096) :
    partialAcc X Wg Wu Wd sg su ds r c 85
      = ∑ i : Fin 11008, qhAt X Wg Wu sg su ds r i * (((Wd (ix2 c i)).toInt : ℝ) : EReal) := by
  have hacc : ∀ n : ℕ, partialAcc X Wg Wu Wd sg su ds r c n
      = ∑ J ∈ Finset.range (n + 1), tileSum X Wg Wu Wd sg su ds r c J := by
    intro n
    induction n with
    | zero => simp [partialAcc, zero_eq]
    | succ k ih => rw [partialAcc, ih, Finset.sum_range_succ _ (k + 1)]
  rw [hacc 85, ← Fin.sum_univ_eq_sum_range (fun J => tileSum X Wg Wu Wd sg su ds r c J) 86]
  unfold tileSum
  rw [Tiles.sum_tiles 86 128 (downTerm X Wg Wu Wd sg su ds r c)]
  show ∑ j : Fin 11008, downTerm X Wg Wu Wd sg su ds r c j.val = _
  refine Finset.sum_congr rfl fun i _ => ?_
  unfold downTerm
  rw [dif_pos i.isLt]

end Arrays

end QMlp

end
-- ==== Proof.Rows.lean ====
/-
  Names for the argument arrays and for the rows a grid point works on.

  Point `n` of the 32 · 86 grid works on row tile `n / 86`: block row `p` is row `256 · (n / 86) + p` of the activations
  and of the result.  Within a row tile the row does not change from one point to the next.
-/
import proofs.«151012_j71725953843877_1_alg».proof.Proof.Gen.KernelIdeal.Frame
import proofs.«151012_j71725953843877_1_alg».proof.Proof.Spec

noncomputable section

namespace Cert.KernelIdeal.Inv

open Cert.KernelIdeal Cert.KernelIdeal.Gen Idealize.ShloMosaic Idealize.ShloMosaic.TcCoe Idealize.SL.Sem

variable (m : (ℓ : Loc nD τ sig) → Buf (Elt Ideal) ℓ)

/-- The argument arrays: activations, gate / up / down weights, their scales, the result scale, the re-quantisation scale. -/
abbrev aX (c : Dev nD) : (⟨2, ![8192, 4096]⟩ : Shape).Idx → EReal := m ((c : Thread nD τ).loc main_arg0)
abbrev aWg (c : Dev nD) : (⟨2, ![11008, 4096]⟩ : Shape).Idx → BitVec 32 := m ((c : Thread nD τ).loc main_arg1)
abbrev aWu (c : Dev nD) : (⟨2, ![11008, 4096]⟩ : Shape).Idx → BitVec 32 := m ((c : Thread nD τ).loc main_arg2)
abbrev aWd (c : Dev nD) : (⟨2, ![4096, 11008]⟩ : Shape).Idx → BitVec 32 := m ((c : Thread nD τ).loc main_arg3)
abbrev aSg (c : Dev nD) : (⟨1, ![11008]⟩ : Shape).Idx → EReal := m ((c : Thread nD τ).loc main_arg4)
abbrev aSu (c : Dev nD) : (⟨1, ![11008]⟩ : Shape).Idx → EReal := m ((c : Thread nD τ).loc main_arg5)
abbrev aSd (c : Dev nD) : (⟨1, ![4096]⟩ : Shape).Idx → EReal := m ((c : Thread nD τ).loc main_arg6)
abbrev aDs (c : Dev nD) : (⟨1, ![1]⟩ : Shape).Idx → EReal := m ((c : Thread nD τ).loc main_arg7)

/-- The specification's result array of the argument arrays. -/
abbrev Gm (c : Dev nD) : (⟨2, ![8192, 4096]⟩ : Shape).Idx → EReal :=
  QMlp.G (aX m c) (aWg m c) (aWu m c) (aWd m c) (aSg m c) (aSu m c) (aDs m c) (aSd m c)

/-- The grid has 2752 points. -/
theorem lt_N {n : ℕ} (hn : n < cfg0.N) : n < 2752 := lt_of_lt_of_eq hn N_0

/-- Block row `p` at point `n`. -/
def rowAt (n : ℕ) (hn : n < 2752) (p : Fin 256) : Fin 8192 :=
  ⟨256 * (n / 86) + p.val, by have := p.isLt; omega⟩

theorem rowAt_val (n : ℕ) (hn : n < 2752) (p : Fin 256) : (rowAt n hn p).val = 256 * (n / 86) + p.val := rfl

/-- Inside a row tile the point before works on the same rows. -/
theorem rowAt_pred (n : ℕ) (hn : n < 2752) (hn' : n - 1 < 2752) (h0 : ¬n % 86 = 0) (p : Fin 256) :
    rowAt (n - 1) hn' p = rowAt n hn p := by
  apply Fin.ext
  show 256 * ((n - 1) / 86) + p.val = 256 * (n / 86) + p.val
  have e : (n - 1) / 86 = n / 86 := by omega
  rw [e]

end Cert.KernelIdeal.Inv

end
-- ==== Proof.RefValue.lean ====
/-
  The reference program's result, read one operation at a time, is the specification `QMlp.G`.

  Bottom-up, at row `r` of the activations: the maximum taken along the row of `|x| = max x (−x)` from −∞ is the row's
  largest magnitude; divided by 127 (a multiplication by 1/127, 127 not being zero) and floored at ε it is the row's
  scale; an entry over that scale, rounded to nearest-even and clipped to [−127, 127], is the quantised entry.  The gate
  and up projections at `(r, i)` contract the quantised row with an integer weight row, read signed, and multiply by the
  row's scale and the weight row's scale.  The gate passes through `g ↦ g · (1 / (1 + exp (−g)))`, which is
  `g · logistic g` once the word of 1.0 is read as 1; times the up projection, over the one-entry re-quantisation scale
  (a one-entry array viewed as a scalar is its entry), rounded and clipped, it is the re-quantised hidden entry.  The
  last contraction, over the 11008 hidden entries against the down weights, times that scale and the column's scale, is
  the result entry.
-/
import proofs.«151012_j71725953843877_1_alg».proof.Proof.Gen.ReferenceIdeal.Read
import proofs.«151012_j71725953843877_1_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-- The word `0x42FE0000` is 127. -/
theorem ofBits_127 : Ideal.ofBits .f32 0x42FE0000#32 = ((127 : ℝ) : EReal) := by
  simp [Ideal.ofBits, Ideal.ieee, -EReal.coe_mul]; norm_num

/-- A maximum taken along each row of an 8192 × 4096 array is, at row `r`, the fold of `max` from the initial value over
    that row's entries. -/
theorem rowMax_apply (y : S8192x4096.Idx → EReal) (init : S_.Idx → EReal) (r : Fin 8192) :
    Host.reduce (FloatOps.maximumf (F := Ideal) (φ := .f32)) y init reducesTo_S8192x4096_S8192_d1 h_S_ (ix1 r)
      = (Finset.univ : Finset (Fin 4096)).fold max (init ix0) (fun k => y (ix2 r k)) := by
  have hred : S8192x4096.Reduces [1] S8192 := by decide
  refine (Host.reduce_eq_fold_single (α := EReal) (s := S8192x4096) (t := S8192) (a := 1) (u := S_)
    (FloatOps.maximumf (F := Ideal) (φ := .f32)) y init reducesTo_S8192x4096_S8192_d1 hred h_S_ (ix1 r)).trans ?_
  have e : (y ∘ hred.lift (ix1 r)) = fun k : Fin 4096 => y (ix2 r k) := funext fun k => congrArg y (funext fun ax => Fin.ext (by
    match ax with | ⟨0, _⟩ => rfl | ⟨1, _⟩ => rfl))
  rw [show Shape.Idx.first h_S_ = (ix0 : S_.Idx) from eq_ix0 _]
  exact congrArg (fun f => Finset.fold max (init ix0) f (Finset.univ : Finset (Fin 4096))) e

/-- The largest magnitude of row `r`. -/
theorem amax_eq (x0 : (⟨S8192x4096, .f32⟩ : BufTy).Contents (Elt Ideal)) (r : Fin 8192) :
    val_main_v1 (F := Ideal) x0 (ix1 r) = QMlp.rowAmax (fun h : Fin 4096 => x0 (ix2 r h)) := by
  unfold val_main_v1
  exact rowMax_apply (val_main_v0 (F := Ideal) x0) (val_main_cst (F := Ideal)) r

/-- The scale of row `r`: its largest magnitude over 127, at least ε. -/
theorem scale_eq (x0 : (⟨S8192x4096, .f32⟩ : BufTy).Contents (Elt Ideal)) (r : Fin 8192) :
    val_main_v6 (F := Ideal) x0 (ix2 r (0 : Fin 1)) = QMlp.rowScale (fun h : Fin 4096 => x0 (ix2 r h)) := by
  unfold QMlp.rowScale
  rw [val_main_v6_apply, val_main_v4_apply, val_main_v5_apply, val_main_cst_1_apply, val_main_v3_apply,
    val_main_cst_0_apply, val_main_v2_apply]
  have e : idx_main_v2 (ix2 r (0 : Fin 1)) = ix1 r := funext fun a => Fin.ext (by match a with | ⟨0, _⟩ => rfl)
  rw [e, amax_eq]
  simp only [Ideal.maximumf_def, Ideal.hostDivf_def, Ideal.ofBits_def]
  rw [ofBits_127, Ideal.div_coe (by norm_num)]

/-- The quantised entry `(r, h)`: the entry over the row's scale, rounded and clipped. -/
theorem quant_eq (x0 : (⟨S8192x4096, .f32⟩ : BufTy).Contents (Elt Ideal)) (r : Fin 8192) (h : Fin 4096) :
    val_main_v10 (F := Ideal) x0 (ix2 r h)
      = QMlp.quant (QMlp.rowScale (fun h' : Fin 4096 => x0 (ix2 r h'))) (x0 (ix2 r h)) := by
  rw [val_main_v10_apply, val_main_call1_v4_apply, val_main_call1_v3_apply, val_main_cst_3_apply,
    val_main_call1_v2_apply, val_main_call1_v1_apply, val_main_call1_v0_apply, val_main_cst_2_apply,
    val_main_v9_apply, val_main_v8_apply, val_main_v7_apply]
  have e : idx_main_v7 (ix2 r h) = ix2 r (0 : Fin 1) := funext fun a => Fin.ext (by
    match a with | ⟨0, _⟩ => rfl | ⟨1, _⟩ => rfl)
  rw [e, scale_eq]
  rfl

/-- The gate projection at `(r, i)`: the quantised row against gate weight row `i`, by the row's scale and the weight
    row's scale. -/
theorem gate_eq (x0 : (⟨S8192x4096, .f32⟩ : BufTy).Contents (Elt Ideal)) (x1 : (⟨S11008x4096, .i32⟩ : BufTy).Contents (Elt Ideal)) (x4 : (⟨S11008, .f32⟩ : BufTy).Contents (Elt Ideal)) (r : Fin 8192) (i : Fin 11008) :
    val_main_v18 (F := Ideal) x0 x1 x4 (ix2 r i)
      = QMlp.proj (QMlp.qRow x0 r) (fun h : Fin 4096 => x1 (ix2 i h)) (QMlp.scaleAt x0 r) (x4 (ix1 i)) := by
  rw [val_main_v18_apply, val_main_v15_apply, val_main_v13_apply, val_main_v14_apply, val_main_v17_apply,
    val_main_v16_apply]
  have e14 : idx_main_v14 (ix2 r i) = ix2 r (0 : Fin 1) := funext fun a => Fin.ext (by
    match a with | ⟨0, _⟩ => rfl | ⟨1, _⟩ => rfl)
  have e17 : idx_main_v16 (idx_main_v17 (ix2 r i)) = ix1 i := funext fun a => Fin.ext (by
    match a with | ⟨0, _⟩ => rfl)
  have el : ∀ k : Fin 4096, lidx_main_v13 (ix2 r i) k = ix2 r k := fun k => funext fun a => Fin.ext (by
    match a with | ⟨0, _⟩ => rfl | ⟨1, _⟩ => rfl)
  have er : ∀ k : Fin 4096, ridx_main_v13 (ix2 r i) k = ix2 i k := fun k => funext fun a => Fin.ext (by
    match a with | ⟨0, _⟩ => rfl | ⟨1, _⟩ => rfl)
  rw [e14, e17, scale_eq]
  simp only [el, er, quant_eq, val_main_v11_apply]
  rfl

/-- The up projection at `(r, i)`, likewise. -/
theorem up_eq (x0 : (⟨S8192x4096, .f32⟩ : BufTy).Contents (Elt Ideal)) (x2 : (⟨S11008x4096, .i32⟩ : BufTy).Contents (Elt Ideal)) (x5 : (⟨S11008, .f32⟩ : BufTy).Contents (Elt Ideal)) (r : Fin 8192) (i : Fin 11008) :
    val_main_v24 (F := Ideal) x0 x2 x5 (ix2 r i)
      = QMlp.proj (QMlp.qRow x0 r) (fun h : Fin 4096 => x2 (ix2 i h)) (QMlp.scaleAt x0 r) (x5 (ix1 i)) := by
  rw [val_main_v24_apply, val_main_v21_apply, val_main_v19_apply, val_main_v20_apply, val_main_v23_apply,
    val_main_v22_apply]
  have e20 : idx_main_v20 (ix2 r i) = ix2 r (0 : Fin 1) := funext fun a => Fin.ext (by
    match a with | ⟨0, _⟩ => rfl | ⟨1, _⟩ => rfl)
  have e23 : idx_main_v22 (idx_main_v23 (ix2 r i)) = ix1 i := funext fun a => Fin.ext (by
    match a with | ⟨0, _⟩ => rfl)
  have el : ∀ k : Fin 4096, lidx_main_v19 (ix2 r i) k = ix2 r k := fun k => funext fun a => Fin.ext (by
    match a with | ⟨0, _⟩ => rfl | ⟨1, _⟩ => rfl)
  have er : ∀ k : Fin 4096, ridx_main_v19 (ix2 r i) k = ix2 i k := fun k => funext fun a => Fin.ext (by
    match a with | ⟨0, _⟩ => rfl | ⟨1, _⟩ => rfl)
  rw [e20, e23, scale_eq]
  simp only [el, er, quant_eq, val_main_v12_apply]
  rfl

/-- The gate passed through `g ↦ g · (1 / (1 + exp (−g)))` is `g · logistic g`. -/
theorem silu_eq (x0 : (⟨S8192x4096, .f32⟩ : BufTy).Contents (Elt Ideal)) (x1 : (⟨S11008x4096, .i32⟩ : BufTy).Contents (Elt Ideal)) (x4 : (⟨S11008, .f32⟩ : BufTy).Contents (Elt Ideal)) (j : S8192x11008.Idx) :
    val_main_v25 (F := Ideal) x0 x1 x4 j
      = val_main_v18 (F := Ideal) x0 x1 x4 j * Ideal.logistic (val_main_v18 (F := Ideal) x0 x1 x4 j) := by
  rw [val_main_v25_apply, val_main_call2_v5_apply, val_main_call2_v4_apply, val_main_call2_cst_0_apply,
    val_main_call2_v3_apply, val_main_call2_v2_apply, val_main_call2_cst_apply, val_main_call2_v1_apply,
    val_main_call2_v0_apply]
  simp only [Ideal.mulf_def, Ideal.hostDivf_def, Ideal.addf_def, Ideal.ofBits_def, Ideal.hostUnary_exp_def,
    Ideal.hostNegf_def, Ideal.negf_def, Ideal.ofBits_one_f32]
  rfl

/-- The one-entry array of the re-quantisation scale, viewed as a scalar, is its entry. -/
theorem ds_eq (x7 : (⟨S1, .f32⟩ : BufTy).Contents (Elt Ideal)) (j : S_.Idx) : val_main_v27 (F := Ideal) x7 j = x7 (ix1 (0 : Fin 1)) := by
  unfold val_main_v27
  refine shapeCast_apply (s := S1) (t := S_) x7 shapeCasts_S1_S_ j (ix1 (0 : Fin 1)) ?_
  show (S1.rowMajor (ix1 (0 : Fin 1))).val = (S_.rowMajor j).val
  have h1 : (S1.rowMajor (ix1 (0 : Fin 1))).val < 1 := (S1.rowMajor _).isLt
  have h2 : (S_.rowMajor j).val < 1 := (S_.rowMajor j).isLt
  omega

/-- The re-quantised hidden entry `(r, i)`. -/
theorem qh_eq (x0 : (⟨S8192x4096, .f32⟩ : BufTy).Contents (Elt Ideal)) (x1 x2 : (⟨S11008x4096, .i32⟩ : BufTy).Contents (Elt Ideal)) (x4 x5 : (⟨S11008, .f32⟩ : BufTy).Contents (Elt Ideal)) (x7 : (⟨S1, .f32⟩ : BufTy).Contents (Elt Ideal)) (r : Fin 8192) (i : Fin 11008) :
    val_main_v31 (F := Ideal) x0 x1 x2 x4 x5 x7 (ix2 r i) = QMlp.qhAt x0 x1 x2 x4 x5 x7 r i := by
  rw [val_main_v31_apply, val_main_call4_v4_apply, val_main_call4_v3_apply, val_main_cst_5_apply,
    val_main_call4_v2_apply, val_main_call4_v1_apply, val_main_call4_v0_apply, val_main_cst_4_apply,
    val_main_v30_apply, val_main_v29_apply, val_main_v28_apply, ds_eq, val_main_v26_apply, silu_eq, gate_eq, up_eq]
  rfl

/-- The reference program's result is the specification. -/
theorem ref_eq (x0 : (⟨S8192x4096, .f32⟩ : BufTy).Contents (Elt Ideal)) (x1 x2 : (⟨S11008x4096, .i32⟩ : BufTy).Contents (Elt Ideal))
    (x3 : (⟨S4096x11008, .i32⟩ : BufTy).Contents (Elt Ideal)) (x4 x5 : (⟨S11008, .f32⟩ : BufTy).Contents (Elt Ideal))
    (x6 : (⟨S4096, .f32⟩ : BufTy).Contents (Elt Ideal)) (x7 : (⟨S1, .f32⟩ : BufTy).Contents (Elt Ideal)) :
    Cert.ReferenceIdeal.Read.val_main_v38 (F := Ideal) x0 x1 x2 x3 x4 x5 x6 x7 = QMlp.G x0 x1 x2 x3 x4 x5 x7 x6 := by
  funext j
  obtain ⟨r, c, rfl⟩ : ∃ (r : Fin 8192) (c : Fin 4096), j = ix2 r c := ⟨j 0, j 1, eq_ix2 j⟩
  rw [QMlp.G_ix2, val_main_v38_apply, val_main_v35_apply, val_main_v33_apply, val_main_v34_apply, ds_eq,
    val_main_v37_apply, val_main_v36_apply]
  have e : idx_main_v36 (idx_main_v37 (ix2 r c)) = ix1 c := funext fun a => Fin.ext (by
    match a with | ⟨0, _⟩ => rfl)
  have el : ∀ k : Fin 11008, lidx_main_v33 (ix2 r c) k = ix2 r k := fun k => funext fun a => Fin.ext (by
    match a with | ⟨0, _⟩ => rfl | ⟨1, _⟩ => rfl)
  have er : ∀ k : Fin 11008, ridx_main_v33 (ix2 r c) k = ix2 c k := fun k => funext fun a => Fin.ext (by
    match a with | ⟨0, _⟩ => rfl | ⟨1, _⟩ => rfl)
  rw [e]
  simp only [el, er, qh_eq, val_main_v32_apply]
  rfl

end Cert.ReferenceIdeal.RefValue

end
-- ==== Proof.Blocks.lean ====
/-
  Where each window's block sits in its array.

  The grid has 32 · 86 points; point `t` is row tile `t / 86` and hidden tile `t % 86`.  The activation window and the
  result window are at block row `t / 86` (256 rows each, all 4096 columns); the gate and up weight windows at block
  row `t % 86` (128 rows, all 4096 columns); the down weight window at block column `t % 86` (all 4096 rows, 128
  columns); the two weight-scale windows at block column `t % 86` of a one-row array; the result-scale row and the
  re-quantisation scale are whole arrays.  So an entry `(p, q)` of a block is the array's entry at block index × block
  size + `(p, q)`.  The one-row arrays are the host's reshapes of the vectors of scales: entry `(0, i)` is entry `i`.
-/
import proofs.«151012_j71725953843877_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F] [Named F]
variable (m : (ℓ : Loc nD τ sig) → Buf (Elt F) ℓ)

/-- The block indices of the nine windows at every grid point. -/
theorem idx_facts : ∀ t : Fin cfg0.N,
    win0_0.index t (0 : Fin 2) = t.val / 86 ∧ win0_0.index t (1 : Fin 2) = 0
    ∧ win0_1.index t (0 : Fin 2) = t.val % 86 ∧ win0_1.index t (1 : Fin 2) = 0
    ∧ win0_2.index t (0 : Fin 2) = t.val % 86 ∧ win0_2.index t (1 : Fin 2) = 0
    ∧ win0_3.index t (0 : Fin 2) = 0 ∧ win0_3.index t (1 : Fin 2) = t.val % 86
    ∧ win0_4.index t (0 : Fin 2) = 0 ∧ win0_4.index t (1 : Fin 2) = t.val % 86
    ∧ win0_5.index t (0 : Fin 2) = 0 ∧ win0_5.index t (1 : Fin 2) = t.val % 86
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val / 86 ∧ win0_8.index t (1 : Fin 2) = 0 :=
  (by decide +kernel : ∀ t : Fin grid0.N, _)

/-- The activation block: rows `256 · (t / 86) + p`. -/
theorem blk0 (c : Dev nD) (t : Fin cfg0.N) (p : Fin 256) (h : Fin 4096) (r : Fin 8192)
    (hr : r.val = 256 * (t.val / 86) + p.val) :
    (iblk m c 0 t : Vec F S256x4096 .f32) (ix2 p h) = V m c main_arg0 (ix2 r h) := by
  obtain ⟨e0, e1, -⟩ := idx_facts t
  unfold iblk
  rw [View.read_apply]
  show V m c main_arg0 _ = V m c main_arg0 _
  congr 1
  funext a; apply Fin.ext
  match a with
  | ⟨0, _⟩ => show win0_0.index t (0 : Fin 2) * 256 + 1 * p.val = r.val; rw [e0, hr]; omega
  | ⟨1, _⟩ => show win0_0.index t (1 : Fin 2) * 4096 + 1 * h.val = h.val; rw [e1]; omega

/-- The gate weight block: rows `128 · (t % 86) + k`. -/
theorem blk1 (c : Dev nD) (t : Fin cfg0.N) (k : Fin 128) (h : Fin 4096) (i : Fin 11008)
    (hi : i.val = (t.val % 86) * 128 + k.val) :
    (iblk m c 1 t : Vec F S128x4096 .i32) (ix2 k h) = V m c main_arg1 (ix2 i h) := by
  obtain ⟨-, -, e0, e1, -⟩ := idx_facts t
  unfold iblk
  rw [View.read_apply]
  show V m c main_arg1 _ = V m c main_arg1 _
  congr 1
  funext a; apply Fin.ext
  match a with
  | ⟨0, _⟩ => show win0_1.index t (0 : Fin 2) * 128 + 1 * k.val = i.val; rw [e0, hi]; omega
  | ⟨1, _⟩ => show win0_1.index t (1 : Fin 2) * 4096 + 1 * h.val = h.val; rw [e1]; omega

/-- The up weight block: rows `128 · (t % 86) + k`. -/
theorem blk2 (c : Dev nD) (t : Fin cfg0.N) (k : Fin 128) (h : Fin 4096) (i : Fin 11008)
    (hi : i.val = (t.val % 86) * 128 + k.val) :
    (iblk m c 2 t : Vec F S128x4096 .i32) (ix2 k h) = V m c main_arg2 (ix2 i h) := by
  obtain ⟨-, -, -, -, e0, e1, -⟩ := idx_facts t
  unfold iblk
  rw [View.read_apply]
  show V m c main_arg2 _ = V m c main_arg2 _
  congr 1
  funext a; apply Fin.ext
  match a with
  | ⟨0, _⟩ => show win0_2.index t (0 : Fin 2) * 128 + 1 * k.val = i.val; rw [e0, hi]; omega
  | ⟨1, _⟩ => show win0_2.index t (1 : Fin 2) * 4096 + 1 * h.val = h.val; rw [e1]; omega

/-- The down weight block: columns `128 · (t % 86) + k`. -/
theorem blk3 (c : Dev nD) (t : Fin cfg0.N) (q : Fin 4096) (k : Fin 128) (i : Fin 11008)
    (hi : i.val = (t.val % 86) * 128 + k.val) :
    (iblk m c 3 t : Vec F S4096x128 .i32) (ix2 q k) = V m c main_arg3 (ix2 q i) := by
  obtain ⟨-, -, -, -, -, -, e0, e1, -⟩ := idx_facts t
  unfold iblk
  rw [View.read_apply]
  show V m c main_arg3 _ = V m c main_arg3 _
  congr 1
  funext a; apply Fin.ext
  match a with
  | ⟨0, _⟩ => show win0_3.index t (0 : Fin 2) * 4096 + 1 * q.val = q.val; rw [e0]; omega
  | ⟨1, _⟩ => show win0_3.index t (1 : Fin 2) * 128 + 1 * k.val = i.val; rw [e1, hi]; omega

/-- The gate scale block: columns `128 · (t % 86) + k` of the one-row array. -/
theorem blk4 (c : Dev nD) (t : Fin cfg0.N) (u : Fin 1) (k : Fin 128) (i : Fin 11008)
    (hi : i.val = (t.val % 86) * 128 + k.val) :
    (iblk m c 4 t : Vec F S1x128 .f32) (ix2 u k) = V m c main_v0 (ix2 (0 : Fin 1) i) := by
  obtain ⟨-, -, -, -, -, -, -, -, e0, e1, -⟩ := idx_facts t
  unfold iblk
  rw [View.read_apply]
  show V m c main_v0 _ = V m c main_v0 _
  congr 1
  funext a; apply Fin.ext
  have hu : u.val = 0 := by omega
  match a with
  | ⟨0, _⟩ => show win0_4.index t (0 : Fin 2) * 1 + 1 * u.val = 0; rw [e0, hu]
  | ⟨1, _⟩ => show win0_4.index t (1 : Fin 2) * 128 + 1 * k.val = i.val; rw [e1, hi]; omega

/-- The up scale block: columns `128 · (t % 86) + k` of the one-row array. -/
theorem blk5 (c : Dev nD) (t : Fin cfg0.N) (u : Fin 1) (k : Fin 128) (i : Fin 11008)
    (hi : i.val = (t.val % 86) * 128 + k.val) :
    (iblk m c 5 t : Vec F S1x128 .f32) (ix2 u k) = V m c main_v1 (ix2 (0 : Fin 1) i) := by
  obtain ⟨-, -, -, -, -, -, -, -, -, -, e0, e1, -⟩ := idx_facts t
  unfold iblk
  rw [View.read_apply]
  show V m c main_v1 _ = V m c main_v1 _
  congr 1
  funext a; apply Fin.ext
  have hu : u.val = 0 := by omega
  match a with
  | ⟨0, _⟩ => show win0_5.index t (0 : Fin 2) * 1 + 1 * u.val = 0; rw [e0, hu]
  | ⟨1, _⟩ => show win0_5.index t (1 : Fin 2) * 128 + 1 * k.val = i.val; rw [e1, hi]; omega

/-- The result scale row: the whole one-row array. -/
theorem blk6 (c : Dev nD) (t : Fin cfg0.N) (u : Fin 1) (q : Fin 4096) :
    (iblk m c 6 t : Vec F S1x4096 .f32) (ix2 u q) = V m c main_v2 (ix2 (0 : Fin 1) q) := by
  obtain ⟨-, -, -, -, -, -, -, -, -, -, -, -, e0, e1, -⟩ := idx_facts t
  unfold iblk
  rw [View.read_apply]
  show V m c main_v2 _ = V m c main_v2 _
  congr 1
  funext a; apply Fin.ext
  have hu : u.val = 0 := by omega
  match a with
  | ⟨0, _⟩ => show win0_6.index t (0 : Fin 2) * 1 + 1 * u.val = 0; rw [e0, hu]
  | ⟨1, _⟩ => show win0_6.index t (1 : Fin 2) * 4096 + 1 * q.val = q.val; rw [e1]; omega

/-- The re-quantisation scale: the whole one-entry array. -/
theorem blk7 (c : Dev nD) (t : Fin cfg0.N) (u v : Fin 1) :
    (iblk m c 7 t : Vec F S1x1 .f32) (ix2 u v) = V m c main_v3 (ix2 (0 : Fin 1) (0 : Fin 1)) := by
  obtain ⟨-, -, -, -, -, -, -, -, -, -, -, -, -, -, e0, e1, -⟩ := idx_facts t
  unfold iblk
  rw [View.read_apply]
  show V m c main_v3 _ = V m c main_v3 _
  congr 1
  funext a; apply Fin.ext
  have hu : u.val = 0 := by omega
  have hv : v.val = 0 := by omega
  match a with
  | ⟨0, _⟩ => show win0_7.index t (0 : Fin 2) * 1 + 1 * u.val = 0; rw [e0, hu]
  | ⟨1, _⟩ => show win0_7.index t (1 : Fin 2) * 1 + 1 * v.val = 0; rw [e1, hv]

/-- The result block: rows `256 · (t / 86) + p` of the result array. -/
theorem emb8 (t : Fin cfg0.N) (p : Fin 256) (q : Fin 4096) (r : Fin 8192)
    (hr : r.val = 256 * (t.val / 86) + p.val) :
    ((cfg0.win 8).blk t).view.emb (ix2 p q) = (ix2 r q : S8192x4096.Idx) := by
  obtain ⟨-, -, -, -, -, -, -, -, -, -, -, -, -, -, -, -, e0, e1⟩ := idx_facts t
  funext a; apply Fin.ext
  match a with
  | ⟨0, _⟩ => show win0_8.index t (0 : Fin 2) * 256 + 1 * p.val = r.val; rw [e0, hr]; omega
  | ⟨1, _⟩ => show win0_8.index t (1 : Fin 2) * 4096 + 1 * q.val = q.val; rw [e1]; omega

/-- The host's reshapes of the scale vectors, as the region finds them. -/
theorem V_v0 (c : Dev nD) : (V m c main_v0 : S1x11008.Idx → Elt F .f32)
    = shapeCast S1x11008 (m ((c : Thread nD τ).loc main_arg4)) shapeCasts_S11008_S1x11008 := by
  dsimp only [Gen.V, Gen.hostOps0]; after_results; rfl
theorem V_v1 (c : Dev nD) : (V m c main_v1 : S1x11008.Idx → Elt F .f32)
    = shapeCast S1x11008 (m ((c : Thread nD τ).loc main_arg5)) shapeCasts_S11008_S1x11008 := by
  dsimp only [Gen.V, Gen.hostOps0]; after_results; rfl
theorem V_v2 (c : Dev nD) : (V m c main_v2 : S1x4096.Idx → Elt F .f32)
    = shapeCast S1x4096 (m ((c : Thread nD τ).loc main_arg6)) shapeCasts_S4096_S1x4096 := by
  dsimp only [Gen.V, Gen.hostOps0]; after_results; rfl
theorem V_v3 (c : Dev nD) : (V m c main_v3 : S1x1.Idx → Elt F .f32)
    = shapeCast S1x1 (m ((c : Thread nD τ).loc main_arg7)) shapeCasts_S1_S1x1 := by
  dsimp only [Gen.V, Gen.hostOps0]; after_results; rfl

/-- Entry `(0, i)` of a reshaped vector is the vector's entry `i`. -/
theorem V_v0_apply (c : Dev nD) (i : Fin 11008) :
    V m c main_v0 (ix2 (0 : Fin 1) i) = m ((c : Thread nD τ).loc main_arg4) (ix1 i) := by
  rw [V_v0]; exact shapeCast_a_1a_apply _ _ 0 i
theorem V_v1_apply (c : Dev nD) (i : Fin 11008) :
    V m c main_v1 (ix2 (0 : Fin 1) i) = m ((c : Thread nD τ).loc main_arg5) (ix1 i) := by
  rw [V_v1]; exact shapeCast_a_1a_apply _ _ 0 i
theorem V_v2_apply (c : Dev nD) (q : Fin 4096) :
    V m c main_v2 (ix2 (0 : Fin 1) q) = m ((c : Thread nD τ).loc main_arg6) (ix1 q) := by
  rw [V_v2]; exact shapeCast_a_1a_apply _ _ 0 q
theorem V_v3_apply (c : Dev nD) :
    V m c main_v3 (ix2 (0 : Fin 1) (0 : Fin 1)) = m ((c : Thread nD τ).loc main_arg7) (ix1 (0 : Fin 1)) := by
  rw [V_v3]; exact shapeCast_a_1a_apply _ _ 0 0

end Cert.KernelIdeal.Blocks

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibMatProdT.lean ====
/-
  A matrix unit's product whose right operand is stored with the contracted axis LAST: for an `n × k` array `A` and an
  `m × k` array `B`, contracting the second axis of both onto the zero accumulator gives, at `(p, q)`, the sum over `l` of
  `A (p, l) * B (q, l)` — the entries of `A · Bᵀ` without the transpose ever being formed.  Also a row maximum: a
  `maximumf` reduction of a rank-2 array along its last axis reads, at row `p`, the fold of `max` from the accumulator's
  value over that row.  Generic extents; indices are built from coordinates.
-/
import Idealize.ShloMosaic.Lib.ValueIdx
import Idealize.ShloMosaic.PureOps.Ideal.Laws

noncomputable section

open scoped BigOperators

namespace MatProdT

open Idealize.ShloMosaic Idealize.ShloMosaic.ValueIdx

/-- The product onto the zero accumulator with both operands contracted along their second axis. -/
theorem matmul_zero_entry_T {n k m : ℕ} {φ₁ φ₂ : FTy}
    (d : DotDims (⟨2, ![n, k]⟩ : Shape) (⟨2, ![m, k]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (j 1).val)
    (hr1 : ∀ (j : (⟨2, ![n, m]⟩ : Shape).Idx) (c : d.contr.Idx), (d.rhsIdx j c 1).val = (c ⟨0, by omega⟩).val)
    (lhs : FVec Ideal (⟨2, ![n, k]⟩ : Shape) φ₁) (rhs : FVec Ideal (⟨2, ![m, k]⟩ : Shape) φ₂) (p : Fin n) (q : Fin m) :
    FloatOps.matmul d prec lhs rhs (constant (F := Ideal) (⟨2, ![n, m]⟩ : Shape) .f32 0x00000000#32) (ix2 p q)
      = ∑ l : Fin k, lhs (ix2 p l) * rhs (ix2 q l) := by
  rw [Ideal.matmul_constant_zero_apply, ← Equiv.sum_comp (contrEquiv1 d k hr hs).symm]
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 q l := funext fun a => Fin.ext (by
    match a with
    | ⟨0, _⟩ => exact hr0 _ _
    | ⟨1, _⟩ => exact (hr1 _ _).trans hk)
  rw [el, er]

/-- A row maximum: the fold of `max` from the accumulator's value over the row's entries. -/
theorem max_ab_1 {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i)) = fun k : Fin b => src (ix2 i k) := funext fun k => congrArg src (funext fun ax => Fin.ext (by
    match ax with | ⟨0, _⟩ => rfl | ⟨1, _⟩ => rfl))
  exact congrArg (fun f => Finset.fold max (Ideal.ofBits φ acc) f (Finset.univ : Finset (Fin b))) e

end MatProdT

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowStat.lean ====
/-
  A row statistic of a rank-2 array kept as a column and stretched back over the row: the `keepdims` maximum and the
  `keepdims` sum along the last axis, each reshaped `[a] → [a, 1]` and broadcast `[a, 1] → [a, b]`, read at `(p, r)`:
  the fold of `max` from −∞, or the sum, over row `p` — the same at every `r`.  Also the column `[a, 1]` itself read at
  `(p, 0)`.  The arrays are single-precision; the reductions start from the words a program prints for them, the zero
  word for a sum and the word of −∞ for a maximum, and the side conditions are typed as a printed program proves them.
  The exponential and the reciprocal square root of an array of extended reals are taken entry by entry.  Generic
  extents; indices are built from coordinates.
-/
import Idealize.ShloMosaic.Lib.Pipeline.Value
import Idealize.ShloMosaic.Lib.ValueIdx
import Idealize.ShloMosaic.PureOps.Ideal.Laws
import proofs.«151012_j71725953843877_1_alg».proof.Proof.LibLayout
import proofs.«151012_j71725953843877_1_alg».proof.Proof.LibRowCol
import proofs.«151012_j71725953843877_1_alg».proof.Proof.LibMatProdT

noncomputable section

open scoped BigOperators

namespace RowStat

open Idealize.ShloMosaic Idealize.ShloMosaic.ValueIdx

theorem exp_apply {s : Shape} {φ : FTy} (x : FVec Ideal s φ) (i : s.Idx) : exp x i = Ideal.exp (x i) := rfl
theorem rsqrt_apply {s : Shape} {φ : FTy} (x : FVec Ideal s φ) (i : s.Idx) : rsqrt x i = Ideal.rsqrt (x i) := rfl

/-- The row maximum as a column, at `(p, u)`. -/
theorem max_col {a b : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (p : Fin a) (u : Fin 1) :
    shapeCast ⟨2, ![a, 1]⟩ (multiReduction .maximumf [1] ⟨1, ![a]⟩ z 0xFF800000#32 hred hφ hacc) hc (ix2 p u)
      = (Finset.univ : Finset (Fin b)).fold max (Ideal.ofBits .f32 0xFF800000#32) (fun k => z (ix2 p k)) :=
  (PushPull.Layout.cast_a_a1 _ hc p u).trans (MatProdT.max_ab_1 z 0xFF800000#32 hred hφ hacc p)

/-- The row sum as a column, at `(p, u)`. -/
theorem sum_col {a b : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction .add [1] ⟨1, ![a]⟩ z 0x00000000#32 hred hφ hacc) hc (ix2 p u)
      = ∑ k : Fin b, z (ix2 p k) :=
  (PushPull.Layout.cast_a_a1 _ hc p u).trans (PushPull.Layout.sum_ab_1 z 0x00000000#32 hred hφ hacc p)

/-- The row maximum stretched back over the row, at `(p, r)`. -/
theorem max_back {a b c : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .maximumf [1] ⟨1, ![a]⟩ z 0xFF800000#32 hred hφ hacc) hc) hb (ix2 p r)
      = (Finset.univ : Finset (Fin b)).fold max (Ideal.ofBits .f32 0xFF800000#32) (fun k => z (ix2 p k)) :=
  (RowCol.broadcastTo_a1_ab_apply _ hb p r).trans (max_col z hred hφ hacc hc p 0)

/-- The row sum stretched back over the row, at `(p, r)`. -/
theorem sum_back {a b c : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .add [1] ⟨1, ![a]⟩ z 0x00000000#32 hred hφ hacc) hc) hb (ix2 p r)
      = ∑ k : Fin b, z (ix2 p k) :=
  (RowCol.broadcastTo_a1_ab_apply _ hb p r).trans (sum_col z hred hφ hacc hc p 0)

end RowStat

end
-- ==== Proof.PayVals.lean ====
/-
  The kernel body's values, entry by entry, over the extended reals.

  Each array the body computes from the arrays it has read is, at an index `(p, q)`, a closed expression of entries of
  those arrays: the row scale and the quantised row of an activation block; the re-quantised gated hidden entry of a
  quantised row against two integer weight rows; the accumulator plus one tile's partial down projection; the final
  de-quantisation by the hidden scale and the column scale.  Pointwise operations read through at the index; a row
  maximum kept as a column, a column or a row stretched over a block, and a product with the contracted axis last on
  both operands each read as the fold, the entry, or the sum they are.
-/
import proofs.«151012_j71725953843877_1_alg».proof.Proof.Gen.KernelIdeal.Skeleton
import proofs.«151012_j71725953843877_1_alg».proof.Proof.Spec
import proofs.«151012_j71725953843877_1_alg».proof.Proof.LibRowCol
import proofs.«151012_j71725953843877_1_alg».proof.Proof.LibMatProdT
import proofs.«151012_j71725953843877_1_alg».proof.Proof.LibRowStat
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators

namespace Cert.KernelIdeal.PayVals

open Cert.KernelIdeal Cert.KernelIdeal.Gen Idealize.ShloMosaic Idealize.ShloMosaic.ValueIdx

/-- The accumulator's initial block is zero everywhere. -/
theorem pay6_apply (p : Fin 256) (c : Fin 4096) : k0_pay6 (F := Ideal) (ix2 p c) = QMlp.zero := by
  unfold k0_pay6
  rw [shapeCast_self]
  rfl

/-- The hidden scale is the one entry of its `[1, 1]` block. -/
theorem pay7_eq (v26 : FVec Ideal S1x1 .f32) : k0_pay7 (F := Ideal) v26 = v26 (ix2 0 0) := by
  unfold k0_pay7 extractAt
  refine congrArg v26 (funext fun a => Fin.ext ?_)
  match a with
  | ⟨0, _⟩ => rfl
  | ⟨1, _⟩ => rfl

/-- The result block: the accumulator times the hidden scale times the column's scale. -/
theorem pay2_apply (v27 : Ideal .f32) (v47 : FVec Ideal S256x4096 .f32) (v50 : FVec Ideal S1x4096 .f32) (p : Fin 256) (c : Fin 4096) :
    k0_pay2 (F := Ideal) v27 v47 v50 (ix2 p c) = v47 (ix2 p c) * v27 * v50 (ix2 0 c) := by
  unfold k0_pay2
  rw [mulf_apply, mulf_apply, broadcast_apply, broadcastTo_1b_ab_apply, shapeCast_self]

/-- The four coordinate facts of a product whose operands are both contracted along their second axis, for the
    `[256, 128] × [4096, 128]` record: the left index is (row of the result, contraction), the right (column of the
    result, contraction). -/
theorem lhsD_0 (i : S256x4096.Idx) (q : dot_S256x128_S4096x128_S256x4096_1_1_0_0_n_n.contr.Idx) :
    (dot_S256x128_S4096x128_S256x4096_1_1_0_0_n_n.lhsIdx i q 0).val = (i 0).val := by
  unfold DotDims.lhsIdx
  rw [dif_neg (show ¬(0 : Fin S256x128.rank) ∈ dot_S256x128_S4096x128_S256x4096_1_1_0_0_n_n.lhsBatch by decide), dif_pos (show (0 : Fin S256x128.rank) ∈ dot_S256x128_S4096x128_S256x4096_1_1_0_0_n_n.lhsNonContracting by decide)]
  rfl
theorem lhsD_1 (i : S256x4096.Idx) (q : dot_S256x128_S4096x128_S256x4096_1_1_0_0_n_n.contr.Idx) :
    (dot_S256x128_S4096x128_S256x4096_1_1_0_0_n_n.lhsIdx i q 1).val = (q ⟨0, by decide⟩).val :=
  dot_S256x128_S4096x128_S256x4096_1_1_0_0_n_n.lhsIdx_val_of_single rfl i q
theorem rhsD_0 (i : S256x4096.Idx) (q : dot_S256x128_S4096x128_S256x4096_1_1_0_0_n_n.contr.Idx) :
    (dot_S256x128_S4096x128_S256x4096_1_1_0_0_n_n.rhsIdx i q 0).val = (i 1).val := by
  unfold DotDims.rhsIdx
  rw [dif_neg (show ¬(0 : Fin S4096x128.rank) ∈ dot_S256x128_S4096x128_S256x4096_1_1_0_0_n_n.rhsBatch by decide), dif_pos (show (0 : Fin S4096x128.rank) ∈ dot_S256x128_S4096x128_S256x4096_1_1_0_0_n_n.rhsNonContracting by decide)]
  rfl
theorem rhsD_1 (i : S256x4096.Idx) (q : dot_S256x128_S4096x128_S256x4096_1_1_0_0_n_n.contr.Idx) :
    (dot_S256x128_S4096x128_S256x4096_1_1_0_0_n_n.rhsIdx i q 1).val = (q ⟨0, by decide⟩).val :=
  dot_S256x128_S4096x128_S256x4096_1_1_0_0_n_n.rhsIdx_val_of_single rfl i q

/-- The same four facts for the `[256, 4096] × [128, 4096]` record. -/
theorem lhsU_0 (i : S256x128.Idx) (q : dot_S256x4096_S128x4096_S256x128_1_1_0_0_n_n.contr.Idx) :
    (dot_S256x4096_S128x4096_S256x128_1_1_0_0_n_n.lhsIdx i q 0).val = (i 0).val := by
  unfold DotDims.lhsIdx
  rw [dif_neg (show ¬(0 : Fin S256x4096.rank) ∈ dot_S256x4096_S128x4096_S256x128_1_1_0_0_n_n.lhsBatch by decide), dif_pos (show (0 : Fin S256x4096.rank) ∈ dot_S256x4096_S128x4096_S256x128_1_1_0_0_n_n.lhsNonContracting by decide)]
  rfl
theorem lhsU_1 (i : S256x128.Idx) (q : dot_S256x4096_S128x4096_S256x128_1_1_0_0_n_n.contr.Idx) :
    (dot_S256x4096_S128x4096_S256x128_1_1_0_0_n_n.lhsIdx i q 1).val = (q ⟨0, by decide⟩).val :=
  dot_S256x4096_S128x4096_S256x128_1_1_0_0_n_n.lhsIdx_val_of_single rfl i q
theorem rhsU_0 (i : S256x128.Idx) (q : dot_S256x4096_S128x4096_S256x128_1_1_0_0_n_n.contr.Idx) :
    (dot_S256x4096_S128x4096_S256x128_1_1_0_0_n_n.rhsIdx i q 0).val = (i 1).val := by
  unfold DotDims.rhsIdx
  rw [dif_neg (show ¬(0 : Fin S128x4096.rank) ∈ dot_S256x4096_S128x4096_S256x128_1_1_0_0_n_n.rhsBatch by decide), dif_pos (show (0 : Fin S128x4096.rank) ∈ dot_S256x4096_S128x4096_S256x128_1_1_0_0_n_n.rhsNonContracting by decide)]
  rfl
theorem rhsU_1 (i : S256x128.Idx) (q : dot_S256x4096_S128x4096_S256x128_1_1_0_0_n_n.contr.Idx) :
    (dot_S256x4096_S128x4096_S256x128_1_1_0_0_n_n.rhsIdx i q 1).val = (q ⟨0, by decide⟩).val :=
  dot_S256x4096_S128x4096_S256x128_1_1_0_0_n_n.rhsIdx_val_of_single rfl i q

/-- The down product of a tile onto zero: the sum over the tile's 128 hidden entries. -/
theorem down_entry (v35 : FVec Ideal S256x128 .bf16) (w : FVec Ideal S4096x128 .bf16) (p : Fin 256) (c : Fin 4096) :
    FloatOps.matmul dot_S256x128_S4096x128_S256x4096_1_1_0_0_n_n none v35 w (constant (F := Ideal) S256x4096 .f32 0x00000000#32) (ix2 p c)
      = ∑ k : Fin 128, v35 (ix2 p k) * w (ix2 c k) :=
  MatProdT.matmul_zero_entry_T dot_S256x128_S4096x128_S256x4096_1_1_0_0_n_n none rfl rfl lhsD_0 lhsD_1 rhsD_0 rhsD_1 v35 w p c

/-- A gate or up product of a block onto zero: the sum over the 4096 activations. -/
theorem up_entry (v3 : FVec Ideal S256x4096 .bf16) (w : FVec Ideal S128x4096 .bf16) (p : Fin 256) (k : Fin 128) :
    FloatOps.matmul dot_S256x4096_S128x4096_S256x128_1_1_0_0_n_n none v3 w (constant (F := Ideal) S256x128 .f32 0x00000000#32) (ix2 p k)
      = ∑ h : Fin 4096, v3 (ix2 p h) * w (ix2 k h) :=
  MatProdT.matmul_zero_entry_T dot_S256x4096_S128x4096_S256x128_1_1_0_0_n_n none rfl rfl lhsU_0 lhsU_1 rhsU_0 rhsU_1 v3 w p k

/-- The accumulator after one more tile: what it held plus the tile's partial down projection. -/
theorem pay1_apply (v35 : FVec Ideal S256x128 .bf16) (v36 : Vec Ideal S4096x128 .i32) (v39 : FVec Ideal S256x4096 .f32)
    (p : Fin 256) (c : Fin 4096) :
    k0_pay1 (F := Ideal) v35 v36 v39 (ix2 p c)
      = v39 (ix2 p c) + ∑ k : Fin 128, v35 (ix2 p k) * (((v36 (ix2 c k)).toInt : ℝ) : EReal) := by
  unfold k0_pay1
  rw [shapeCast_self, addf_apply]
  refine congrArg (fun t => v39 (ix2 p c) + t) ?_
  exact down_entry v35 (sitofp .bf16 v36) p c

/-- The named reciprocal is the rational 1/127. -/
theorem inv127 : Named.named (F := Ideal) Cert.KernelIdeal.κ "inv_127" (φ := .f32) 0x3C010204#32 = ((1 / 127 : ℝ) : EReal) :=
  IdealRules.named_const.ideal_named_scalar _ _ _ _ rfl

/-- The scale column: at row `p`, the row's largest magnitude over 127, at least ε. -/
theorem pay3_apply (x0 : FVec Ideal S256x4096 .f32) (p : Fin 256) (u : Fin 1) :
    k0_pay3 (F := Ideal) x0 (ix2 p u) = QMlp.rowScale (fun h : Fin 4096 => x0 (ix2 p h)) := by
  unfold k0_pay3
  rw [maximumf_apply, mulf_apply, broadcast_apply, broadcast_apply,
    RowStat.max_col (absf x0) reduces_S256x4096_S256 (.inl rfl) rfl shapeCasts_S256_S256x1 p u, inv127]
  rfl

/-- The stored scale column is the scale column. -/
theorem pay5_apply (x0 : FVec Ideal S256x4096 .f32) (p : Fin 256) (u : Fin 1) :
    k0_pay5 (F := Ideal) x0 (ix2 p u) = QMlp.rowScale (fun h : Fin 4096 => x0 (ix2 p h)) := by
  unfold k0_pay5
  rw [shapeCast_self]
  exact pay3_apply x0 p u

/-- Rounding to nearest, ties to even, of an array of extended reals is taken entry by entry … -/
theorem roundeven_apply {s : Shape} {φ : FTy} (x : FVec Ideal s φ) (i : s.Idx) :
    roundeven x i = Ideal.liftRound Ideal.roundHalfEven (x i) := rfl
/-- … and so is the logistic function. -/
theorem logistic_apply {s : Shape} {φ : FTy} (x : FVec Ideal s φ) (i : s.Idx) : logistic x i = Ideal.logistic (x i) := rfl

/-- The quantised block: each entry divided by its row's scale, rounded and clipped. -/
theorem pay4_apply (x0 : FVec Ideal S256x4096 .f32) (p : Fin 256) (h : Fin 4096) :
    k0_pay4 (F := Ideal) x0 (ix2 p h) = QMlp.quant (QMlp.rowScale (fun h' : Fin 4096 => x0 (ix2 p h'))) (x0 (ix2 p h)) := by
  unfold k0_pay4
  rw [shapeCast_self, truncf_apply, minimumf_apply, maximumf_apply, broadcast_apply, broadcast_apply]
  rw [roundeven_apply, divf_apply, RowCol.broadcastTo_a1_ab_apply, pay3_apply]
  rfl

/-- The re-quantised hidden block: entry `(p, k)` is the gated product of the gate and up projections of quantised row
    `p` onto hidden unit `k`, divided by the hidden scale, rounded and clipped. -/
theorem pay8_apply (v3 : FVec Ideal S256x4096 .bf16) (v4 v6 : Vec Ideal S128x4096 .i32) (v10 : FVec Ideal S256x1 .f32)
    (v13 v19 : FVec Ideal S1x128 .f32) (v26 : FVec Ideal S1x1 .f32) (p : Fin 256) (k : Fin 128) :
    k0_pay8 (F := Ideal) v3 v4 v6 v10 v13 v19 v26 (ix2 p k)
      = QMlp.qhOf (fun h : Fin 4096 => v3 (ix2 p h)) (v10 (ix2 p 0)) (fun h => v4 (ix2 k h)) (fun h => v6 (ix2 k h))
          (v13 (ix2 0 k)) (v19 (ix2 0 k)) (v26 (ix2 0 0)) := by
  unfold k0_pay8
  simp only [truncf_apply, minimumf_apply, maximumf_apply, broadcast_apply, roundeven_apply, logistic_apply, divf_apply,
    mulf_apply, pay7_eq, up_entry, RowCol.broadcastTo_a1_ab_apply, broadcastTo_1b_ab_apply, shapeCast_self]
  rfl

end Cert.KernelIdeal.PayVals

end
-- ==== Proof.Steps.lean ====
/-
  One grid point's arithmetic, in the specification's words.

  The grid walks 32 row tiles of 256 activation rows, and for each of them 86 hidden tiles of 128 hidden units.  At a row
  tile's first point the body quantises its 256 rows once: the quantised block holds, at `(p, h)`, entry `h` of the
  quantised row of the activations' row `r p`, and the scale column holds that row's scale; the accumulator is reset to
  zero.  At every point, with the quantised block and the scale column as they were left, the body forms the gate and up
  projections of the 256 quantised rows onto the tile's 128 hidden units, gates and re-quantises them by the hidden
  scale, and adds to the accumulator, at `(p, q)`, the sum over the tile's 128 hidden units of the re-quantised hidden
  entry times the down weight `(q, ·)`: tile `J`'s contribution to the down projection of row `r p` at column `q`.  At a
  row tile's last point the result block is the accumulator times the hidden scale times the column's scale.

  The hypotheses say where a block's entries sit in the argument arrays: a weight or scale block of tile `J` holds, at
  coordinate `k` along the hidden axis, the array's entry at hidden unit `J * 128 + k`.
-/
import proofs.«151012_j71725953843877_1_alg».proof.Proof.Gen.KernelIdeal.Skeleton
import proofs.«151012_j71725953843877_1_alg».proof.Proof.Spec
import proofs.«151012_j71725953843877_1_alg».proof.Proof.PayVals
import Idealize.ShloMosaic.Lib.ValueIdx

noncomputable section

open scoped BigOperators

namespace Cert.KernelIdeal.Steps

open Cert.KernelIdeal Cert.KernelIdeal.Gen Idealize.ShloMosaic Idealize.ShloMosaic.ValueIdx

/-- The last point of a row tile: the result block is the accumulator de-quantised by the hidden scale and by each
    column's scale. -/
theorem out_step (acc : FVec Ideal S256x4096 .f32) (x6 : FVec Ideal S1x4096 .f32) (x7 : FVec Ideal S1x1 .f32)
    (sd : (⟨1, ![4096]⟩ : Shape).Idx → EReal) (ds : (⟨1, ![1]⟩ : Shape).Idx → EReal)
    (h6 : ∀ (u : Fin 1) (q : Fin 4096), x6 (ix2 u q) = sd (ix1 q)) (h7 : ∀ u v : Fin 1, x7 (ix2 u v) = ds (ix1 0))
    (p : Fin 256) (q : Fin 4096) :
    k0_pay2 (F := Ideal) (k0_pay7 (F := Ideal) x7) acc x6 (ix2 p q) = acc (ix2 p q) * ds (ix1 0) * sd (ix1 q) := by
  rw [PayVals.pay2_apply, PayVals.pay7_eq, h6 0 q, h7 0 0]

variable (X : (⟨2, ![8192, 4096]⟩ : Shape).Idx → EReal)
  (Wg Wu : (⟨2, ![11008, 4096]⟩ : Shape).Idx → BitVec 32) (Wd : (⟨2, ![4096, 11008]⟩ : Shape).Idx → BitVec 32)
  (sg su : (⟨1, ![11008]⟩ : Shape).Idx → EReal) (ds : (⟨1, ![1]⟩ : Shape).Idx → EReal)

/-- At a row tile's first point the quantised block is the quantised rows of the activations. -/
theorem reset_q (x0 : FVec Ideal S256x4096 .f32) (r : Fin 256 → Fin 8192)
    (h0 : ∀ (p : Fin 256) (h : Fin 4096), x0 (ix2 p h) = X (ix2 (r p) h)) (p : Fin 256) (h : Fin 4096) :
    k0_pay4 (F := Ideal) x0 (ix2 p h) = QMlp.qRow X (r p) h := by
  rw [PayVals.pay4_apply]
  have e : (fun h' : Fin 4096 => x0 (ix2 p h')) = QMlp.xRow X (r p) := funext fun h' => h0 p h'
  rw [e, h0]
  rfl

/-- … and the scale column is the rows' scales. -/
theorem reset_s (x0 : FVec Ideal S256x4096 .f32) (r : Fin 256 → Fin 8192)
    (h0 : ∀ (p : Fin 256) (h : Fin 4096), x0 (ix2 p h) = X (ix2 (r p) h)) (p : Fin 256) (u : Fin 1) :
    k0_pay5 (F := Ideal) x0 (ix2 p u) = QMlp.scaleAt X (r p) := by
  rw [PayVals.pay5_apply]
  have e : (fun h' : Fin 4096 => x0 (ix2 p h')) = QMlp.xRow X (r p) := funext fun h' => h0 p h'
  rw [e]
  rfl

/-- One hidden tile: the accumulator gains tile `J`'s contribution to the down projection. -/
theorem tile_step (xs0 : FVec Ideal S256x4096 .bf16) (xs1 : FVec Ideal S256x1 .f32) (acc : FVec Ideal S256x4096 .f32)
    (x1 x2 : Vec Ideal S128x4096 .i32) (x3 : Vec Ideal S4096x128 .i32) (x4 x5 : FVec Ideal S1x128 .f32)
    (x7 : FVec Ideal S1x1 .f32) (r : Fin 256 → Fin 8192) (J : ℕ) (hJ : J < 86)
    (hq : ∀ (p : Fin 256) (h : Fin 4096), xs0 (ix2 p h) = QMlp.qRow X (r p) h)
    (hs : ∀ (p : Fin 256) (u : Fin 1), xs1 (ix2 p u) = QMlp.scaleAt X (r p))
    (h1 : ∀ (k : Fin 128) (h : Fin 4096) (i : Fin 11008), i.val = J * 128 + k.val → x1 (ix2 k h) = Wg (ix2 i h))
    (h2 : ∀ (k : Fin 128) (h : Fin 4096) (i : Fin 11008), i.val = J * 128 + k.val → x2 (ix2 k h) = Wu (ix2 i h))
    (h3 : ∀ (q : Fin 4096) (k : Fin 128) (i : Fin 11008), i.val = J * 128 + k.val → x3 (ix2 q k) = Wd (ix2 q i))
    (h4 : ∀ (u : Fin 1) (k : Fin 128) (i : Fin 11008), i.val = J * 128 + k.val → x4 (ix2 u k) = sg (ix1 i))
    (h5 : ∀ (u : Fin 1) (k : Fin 128) (i : Fin 11008), i.val = J * 128 + k.val → x5 (ix2 u k) = su (ix1 i))
    (h7 : ∀ (u v : Fin 1), x7 (ix2 u v) = ds (ix1 0)) (p : Fin 256) (q : Fin 4096) :
    k0_pay1 (F := Ideal) (k0_pay8 (F := Ideal) xs0 x1 x2 xs1 x4 x5 x7) x3 acc (ix2 p q)
      = acc (ix2 p q) + QMlp.tileSum X Wg Wu Wd sg su ds (r p) q J := by
  rw [PayVals.pay1_apply]
  congr 1
  unfold QMlp.tileSum
  refine Finset.sum_congr rfl fun k _ => ?_
  -- hidden unit `J * 128 + k` is one of the 11008
  have hk : J * 128 + k.val < 11008 := by have := k.isLt; omega
  unfold QMlp.downTerm
  rw [dif_pos hk, PayVals.pay8_apply, h3 q k ⟨J * 128 + k.val, hk⟩ rfl]
  congr 1
  unfold QMlp.qhAt
  -- the block's rows are the quantised rows, and the tile's weight rows are the arrays' rows at that hidden unit
  have eq : (fun h : Fin 4096 => xs0 (ix2 p h)) = QMlp.qRow X (r p) := funext fun h => hq p h
  have e1 : (fun h : Fin 4096 => x1 (ix2 k h)) = fun h => Wg (ix2 (⟨J * 128 + k.val, hk⟩ : Fin 11008) h) :=
    funext fun h => h1 k h _ rfl
  have e2 : (fun h : Fin 4096 => x2 (ix2 k h)) = fun h => Wu (ix2 (⟨J * 128 + k.val, hk⟩ : Fin 11008) h) :=
    funext fun h => h2 k h _ rfl
  rw [eq, e1, e2, hs p 0, h4 0 k ⟨J * 128 + k.val, hk⟩ rfl, h5 0 k ⟨J * 128 + k.val, hk⟩ rfl, h7 0 0]

end Cert.KernelIdeal.Steps

end
-- ==== Proof.Pieces.lean ====
/-
  What each control case of the kernel body leaves behind, read as VALUES.

  The body runs at every grid point in one of three control cases:
    A  (first point of a row block):  it quantizes the input block (payloads `k0_pay4`, `k0_pay5`), zeroes the
       accumulator (`k0_pay6`), then performs one accumulation step from what it has just stored;
    B  (an interior point):           one accumulation step from the carried scratch contents `xs0 xs1 xs2`;
    C  (last point of a row block):   the same step, then the scaled accumulator is stored into the output block.
  The generated frame states what the carried scratch buffers and the output hold after a case as the pieces
  its run found, written over arbitrary contents and read back (`sout0_κ_j`, `out0_C_8`). Every store and every load of
  this kernel goes through the WHOLE buffer (the unit rectangle at offsets `![0, 0]` of the buffer's own sizes), so

    * the last store into a buffer determines its contents (`View.canon_cons_unit_zero`, `View.canon_unit_zero`),
    * a load of a buffer an earlier store of the same case covered reads that store's payload (`View.readCov_unit_zero`),
    * a load of an untouched whole buffer reads its contents (`View.ld_unit_zero`, `Memref.IsWhole.read_unread`),

  and each piece list collapses to ONE payload expression over the blocks `x0 … x7` and, in cases B and C, the scratch
  contents the point before left. The six lemmas below are those expressions, for any float instance `F`.
-/
import proofs.«151012_j71725953843877_1_alg».proof.Proof.Gen.KernelIdeal.Frame
import Idealize.ShloMosaic.Lib.Pipeline.Value
import Idealize.ShloMosaic.Lib.Tactic

-- the piece lists mention rectangles of extents 256 × 4096: structural recursion once per coordinate
set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

/-- The offsets `![0, 0]` of every store and load are the zero offsets. -/
theorem hz : (![0, 0] : Fin 2 → Nat) = fun _ => 0 := funext fun a => by fin_cases a <;> rfl

/-! ## Case A: the first point of a row block -/

/-- Case A leaves in the first scratch buffer the quantized input block: its one covering store's payload
    `k0_pay4`, whose load reads the whole input block `x0`. -/
theorem sA0 (c : Dev nD) (i : grid0.Coords) (arg2 : Memref sig .tc .vmem S256x4096 .f32) (harg2 : arg2.IsWhole) (arg3 : Memref sig .tc .vmem S128x4096 .i32) (harg3 : arg3.IsWhole) (arg4 : Memref sig .tc .vmem S128x4096 .i32) (harg4 : arg4.IsWhole) (arg5 : Memref sig .tc .vmem S4096x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x1 .f32) (harg9 : arg9.IsWhole) (arg10 : Memref sig .tc .vmem S256x4096 .f32) (harg10 : arg10.IsWhole) (arg11 : Memref sig .tc .vmem S256x4096 .bf16) (harg11 : arg11.IsWhole) (arg12 : Memref sig .tc .vmem S256x1 .f32) (harg12 : arg12.IsWhole) (arg13 : Memref sig .tc .vmem S256x4096 .f32) (harg13 : arg13.IsWhole) (hc0 : cond0_0 i) (hc1 : ¬cond0_1 i)
    (x0 : Vec F S256x4096 .f32) (x1 : Vec F S128x4096 .i32) (x2 : Vec F S128x4096 .i32) (x3 : Vec F S4096x128 .i32) (x4 : Vec F S1x128 .f32) (x5 : Vec F S1x128 .f32) (x6 : Vec F S1x4096 .f32) (x7 : Vec F S1x1 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay4 x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x4096) hz, View.ld_unit_zero (S := S128x4096) hz, View.ld_unit_zero (S := S4096x128) hz, View.ld_unit_zero (S := S1x128) hz, View.ld_unit_zero (S := S1x4096) hz, View.ld_unit_zero (S := S1x1) hz, View.ld_unit_zero (S := S256x1) hz]

/-- Case A leaves in the second scratch buffer the per-row scales of the input block: its one covering store's
    payload `k0_pay5` of `x0`. -/
theorem sA1 (c : Dev nD) (i : grid0.Coords) (arg2 : Memref sig .tc .vmem S256x4096 .f32) (harg2 : arg2.IsWhole) (arg3 : Memref sig .tc .vmem S128x4096 .i32) (harg3 : arg3.IsWhole) (arg4 : Memref sig .tc .vmem S128x4096 .i32) (harg4 : arg4.IsWhole) (arg5 : Memref sig .tc .vmem S4096x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x1 .f32) (harg9 : arg9.IsWhole) (arg10 : Memref sig .tc .vmem S256x4096 .f32) (harg10 : arg10.IsWhole) (arg11 : Memref sig .tc .vmem S256x4096 .bf16) (harg11 : arg11.IsWhole) (arg12 : Memref sig .tc .vmem S256x1 .f32) (harg12 : arg12.IsWhole) (arg13 : Memref sig .tc .vmem S256x4096 .f32) (harg13 : arg13.IsWhole) (hc0 : cond0_0 i) (hc1 : ¬cond0_1 i)
    (x0 : Vec F S256x4096 .f32) (x1 : Vec F S128x4096 .i32) (x2 : Vec F S128x4096 .i32) (x3 : Vec F S4096x128 .i32) (x4 : Vec F S1x128 .f32) (x5 : Vec F S1x128 .f32) (x6 : Vec F S1x4096 .f32) (x7 : Vec F S1x1 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay5 x0 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x4096) hz, View.ld_unit_zero (S := S128x4096) hz, View.ld_unit_zero (S := S4096x128) hz, View.ld_unit_zero (S := S1x128) hz, View.ld_unit_zero (S := S1x4096) hz, View.ld_unit_zero (S := S1x1) hz, View.ld_unit_zero (S := S256x1) hz]

/-- Case A stores into the accumulator twice: the zero block `k0_pay6` first, then one accumulation step. The second
    store is the last, so it determines the contents; its payload loads the three scratch buffers back, and each of
    those loads reads what the case has just stored there — the quantized block, the scales, the zero block. -/
theorem sA2 (c : Dev nD) (i : grid0.Coords) (arg2 : Memref sig .tc .vmem S256x4096 .f32) (harg2 : arg2.IsWhole) (arg3 : Memref sig .tc .vmem S128x4096 .i32) (harg3 : arg3.IsWhole) (arg4 : Memref sig .tc .vmem S128x4096 .i32) (harg4 : arg4.IsWhole) (arg5 : Memref sig .tc .vmem S4096x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x1 .f32) (harg9 : arg9.IsWhole) (arg10 : Memref sig .tc .vmem S256x4096 .f32) (harg10 : arg10.IsWhole) (arg11 : Memref sig .tc .vmem S256x4096 .bf16) (harg11 : arg11.IsWhole) (arg12 : Memref sig .tc .vmem S256x1 .f32) (harg12 : arg12.IsWhole) (arg13 : Memref sig .tc .vmem S256x4096 .f32) (harg13 : arg13.IsWhole) (hc0 : cond0_0 i) (hc1 : ¬cond0_1 i)
    (x0 : Vec F S256x4096 .f32) (x1 : Vec F S128x4096 .i32) (x2 : Vec F S128x4096 .i32) (x3 : Vec F S4096x128 .i32) (x4 : Vec F S1x128 .f32) (x5 : Vec F S1x128 .f32) (x6 : Vec F S1x4096 .f32) (x7 : Vec F S1x1 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay1 (k0_pay8 (k0_pay4 x0) x1 x2 (k0_pay5 x0) x4 x5 x7) x3 k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S256x4096) hz, View.readCov_unit_zero (S := S256x4096) _ hz,
    View.readCov_unit_zero (S := S256x1) _ hz, View.readCov_unit_zero (S := S256x4096) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x4096) hz, View.ld_unit_zero (S := S128x4096) hz, View.ld_unit_zero (S := S4096x128) hz, View.ld_unit_zero (S := S1x128) hz, View.ld_unit_zero (S := S1x4096) hz, View.ld_unit_zero (S := S1x1) hz, View.ld_unit_zero (S := S256x1) hz]

/-! ## Case B: an interior point -/

/-- Case B leaves in the accumulator one accumulation step from the carried contents: the quantized block `xs0` and
    the scales `xs1` enter the projection `k0_pay8`, and the step `k0_pay1` adds its product to the accumulator `xs2`.
    (The other two scratch buffers are not stored into: `sout0_B_0 = xs0` and `sout0_B_1 = xs1` by definition.) -/
theorem sB2 (c : Dev nD) (i : grid0.Coords) (arg2 : Memref sig .tc .vmem S256x4096 .f32) (harg2 : arg2.IsWhole) (arg3 : Memref sig .tc .vmem S128x4096 .i32) (harg3 : arg3.IsWhole) (arg4 : Memref sig .tc .vmem S128x4096 .i32) (harg4 : arg4.IsWhole) (arg5 : Memref sig .tc .vmem S4096x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x1 .f32) (harg9 : arg9.IsWhole) (arg10 : Memref sig .tc .vmem S256x4096 .f32) (harg10 : arg10.IsWhole) (arg11 : Memref sig .tc .vmem S256x4096 .bf16) (harg11 : arg11.IsWhole) (arg12 : Memref sig .tc .vmem S256x1 .f32) (harg12 : arg12.IsWhole) (arg13 : Memref sig .tc .vmem S256x4096 .f32) (harg13 : arg13.IsWhole) (hc0 : ¬cond0_0 i) (hc1 : ¬cond0_1 i)
    (x0 : Vec F S256x4096 .f32) (x1 : Vec F S128x4096 .i32) (x2 : Vec F S128x4096 .i32) (x3 : Vec F S4096x128 .i32) (x4 : Vec F S1x128 .f32) (x5 : Vec F S1x128 .f32) (x6 : Vec F S1x4096 .f32) (x7 : Vec F S1x1 .f32) (xs0 : Vec F S256x4096 .bf16) (xs1 : Vec F S256x1 .f32) (xs2 : Vec F S256x4096 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = k0_pay1 (k0_pay8 xs0 x1 x2 xs1 x4 x5 x7) x3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x4096) hz, View.ld_unit_zero (S := S128x4096) hz, View.ld_unit_zero (S := S4096x128) hz, View.ld_unit_zero (S := S1x128) hz, View.ld_unit_zero (S := S1x4096) hz, View.ld_unit_zero (S := S1x1) hz, View.ld_unit_zero (S := S256x1) hz]

/-! ## Case C: the last point of a row block -/

/-- Case C leaves in the accumulator the same accumulation step as case B. -/
theorem sC2 (c : Dev nD) (i : grid0.Coords) (arg2 : Memref sig .tc .vmem S256x4096 .f32) (harg2 : arg2.IsWhole) (arg3 : Memref sig .tc .vmem S128x4096 .i32) (harg3 : arg3.IsWhole) (arg4 : Memref sig .tc .vmem S128x4096 .i32) (harg4 : arg4.IsWhole) (arg5 : Memref sig .tc .vmem S4096x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x1 .f32) (harg9 : arg9.IsWhole) (arg10 : Memref sig .tc .vmem S256x4096 .f32) (harg10 : arg10.IsWhole) (arg11 : Memref sig .tc .vmem S256x4096 .bf16) (harg11 : arg11.IsWhole) (arg12 : Memref sig .tc .vmem S256x1 .f32) (harg12 : arg12.IsWhole) (arg13 : Memref sig .tc .vmem S256x4096 .f32) (harg13 : arg13.IsWhole) (hc0 : ¬cond0_0 i) (hc1 : cond0_1 i)
    (x0 : Vec F S256x4096 .f32) (x1 : Vec F S128x4096 .i32) (x2 : Vec F S128x4096 .i32) (x3 : Vec F S4096x128 .i32) (x4 : Vec F S1x128 .f32) (x5 : Vec F S1x128 .f32) (x6 : Vec F S1x4096 .f32) (x7 : Vec F S1x1 .f32) (xs0 : Vec F S256x4096 .bf16) (xs1 : Vec F S256x1 .f32) (xs2 : Vec F S256x4096 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = k0_pay1 (k0_pay8 xs0 x1 x2 xs1 x4 x5 x7) x3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x4096) hz, View.ld_unit_zero (S := S128x4096) hz, View.ld_unit_zero (S := S4096x128) hz, View.ld_unit_zero (S := S1x128) hz, View.ld_unit_zero (S := S1x4096) hz, View.ld_unit_zero (S := S1x1) hz, View.ld_unit_zero (S := S256x1) hz]

/-- Case C then stores the output block: the accumulator it has just written (a load the accumulation step's store
    covers, so it reads that step's payload), scaled by the scalar `k0_pay7 x7` and by the row `x6` (`k0_pay2`). -/
theorem oC8 (c : Dev nD) (i : grid0.Coords) (arg2 : Memref sig .tc .vmem S256x4096 .f32) (harg2 : arg2.IsWhole) (arg3 : Memref sig .tc .vmem S128x4096 .i32) (harg3 : arg3.IsWhole) (arg4 : Memref sig .tc .vmem S128x4096 .i32) (harg4 : arg4.IsWhole) (arg5 : Memref sig .tc .vmem S4096x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x1 .f32) (harg9 : arg9.IsWhole) (arg10 : Memref sig .tc .vmem S256x4096 .f32) (harg10 : arg10.IsWhole) (arg11 : Memref sig .tc .vmem S256x4096 .bf16) (harg11 : arg11.IsWhole) (arg12 : Memref sig .tc .vmem S256x1 .f32) (harg12 : arg12.IsWhole) (arg13 : Memref sig .tc .vmem S256x4096 .f32) (harg13 : arg13.IsWhole) (hc0 : ¬cond0_0 i) (hc1 : cond0_1 i)
    (x0 : Vec F S256x4096 .f32) (x1 : Vec F S128x4096 .i32) (x2 : Vec F S128x4096 .i32) (x3 : Vec F S4096x128 .i32) (x4 : Vec F S1x128 .f32) (x5 : Vec F S1x128 .f32) (x6 : Vec F S1x4096 .f32) (x7 : Vec F S1x1 .f32) (xs0 : Vec F S256x4096 .bf16) (xs1 : Vec F S256x1 .f32) (xs2 : Vec F S256x4096 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = k0_pay2 (k0_pay7 x7) (k0_pay1 (k0_pay8 xs0 x1 x2 xs1 x4 x5 x7) x3 xs2) x6 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  sl_unfold_words
  rw [View.canon_unit_zero hz, View.readCov_unit_zero (S := S256x4096) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x4096) hz, View.ld_unit_zero (S := S128x4096) hz, View.ld_unit_zero (S := S4096x128) hz, View.ld_unit_zero (S := S1x128) hz, View.ld_unit_zero (S := S1x4096) hz, View.ld_unit_zero (S := S1x1) hz, View.ld_unit_zero (S := S256x1) hz]

end Cert.KernelIdeal.Pieces

end
-- ==== Proof.AtPoint.lean ====
/-
  What one grid point leaves in the buffers the kernel carries from point to point, by the case the point falls in.

  A row tile's first point (hidden tile 0) quantises its activation block, stores the rows' scales, clears the
  accumulator and adds the first hidden tile's contribution.  Every later point keeps the quantised block and the scales
  and adds its own hidden tile's contribution to the accumulator.  The row tile's last point (hidden tile 85) then
  scales the accumulator into the result block.  Each statement reads one component after the point as the body's
  arithmetic of the point's input blocks and of what the point before left.
-/
import proofs.«151012_j71725953843877_1_alg».proof.Proof.Gen.KernelIdeal.Frame
import proofs.«151012_j71725953843877_1_alg».proof.Proof.Pieces
import Idealize.ShloMosaic.Lib.Pipeline.Value

set_option maxRecDepth 16384

noncomputable section

/-! ## What a grid point leaves, by the case it falls in -/

namespace Cert.KernelIdeal.AtPoint

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

/-- What the point before `t` left (the result block, the quantised block, the scale column, the accumulator). -/
abbrev prev (c : Dev nD) (t : Fin cfg0.N) :=
  outsAt0 m c (t.val - 1) (Nat.lt_of_le_of_lt (Nat.sub_le _ _) t.isLt)

/-- A row tile's first point quantises the activation block afresh … -/
theorem A_q (c : Dev nD) (t : Fin cfg0.N) (h0 : t.val % 86 = 0) (h1 : ¬t.val % 86 = 85) :
    (outsAt0 m c t.val t.isLt).2.1 = k0_pay4 (iblk m c 0 t) := by
  rw [outsAt0_A m c t h0 h1]
  dsimp only
  exact Pieces.sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- … stores its scales … -/
theorem A_s (c : Dev nD) (t : Fin cfg0.N) (h0 : t.val % 86 = 0) (h1 : ¬t.val % 86 = 85) :
    (outsAt0 m c t.val t.isLt).2.2.1 = k0_pay5 (iblk m c 0 t) := by
  rw [outsAt0_A m c t h0 h1]
  dsimp only
  exact Pieces.sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- … and starts the accumulator from zero with the first hidden tile. -/
theorem A_acc (c : Dev nD) (t : Fin cfg0.N) (h0 : t.val % 86 = 0) (h1 : ¬t.val % 86 = 85) :
    (outsAt0 m c t.val t.isLt).2.2.2
      = k0_pay1 (k0_pay8 (k0_pay4 (iblk m c 0 t)) (iblk m c 1 t) (iblk m c 2 t) (k0_pay5 (iblk m c 0 t)) (iblk m c 4 t) (iblk m c 5 t) (iblk m c 7 t)) (iblk m c 3 t) k0_pay6 := by
  rw [outsAt0_A m c t h0 h1]
  dsimp only
  exact Pieces.sA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- A middle point keeps the quantised block and the scales … -/
theorem B_q (c : Dev nD) (t : Fin cfg0.N) (h0 : ¬t.val % 86 = 0) (h1 : ¬t.val % 86 = 85) :
    (outsAt0 m c t.val t.isLt).2.1 = (prev m c t).2.1 := by
  rw [outsAt0_B m c t h0 h1]
  dsimp only
  rfl
theorem B_s (c : Dev nD) (t : Fin cfg0.N) (h0 : ¬t.val % 86 = 0) (h1 : ¬t.val % 86 = 85) :
    (outsAt0 m c t.val t.isLt).2.2.1 = (prev m c t).2.2.1 := by
  rw [outsAt0_B m c t h0 h1]
  dsimp only
  rfl
/-- … and adds its hidden tile to the accumulator. -/
theorem B_acc (c : Dev nD) (t : Fin cfg0.N) (h0 : ¬t.val % 86 = 0) (h1 : ¬t.val % 86 = 85) :
    (outsAt0 m c t.val t.isLt).2.2.2 = k0_pay1 (k0_pay8 (prev m c t).2.1 (iblk m c 1 t) (iblk m c 2 t) (prev m c t).2.2.1 (iblk m c 4 t) (iblk m c 5 t) (iblk m c 7 t)) (iblk m c 3 t) (prev m c t).2.2.2 := by
  rw [outsAt0_B m c t h0 h1]
  dsimp only
  exact Pieces.sB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- A row tile's last point does the same … -/
theorem C_q (c : Dev nD) (t : Fin cfg0.N) (h0 : ¬t.val % 86 = 0) (h1 : t.val % 86 = 85) :
    (outsAt0 m c t.val t.isLt).2.1 = (prev m c t).2.1 := by
  rw [outsAt0_C m c t h0 h1]
  dsimp only
  rfl
theorem C_s (c : Dev nD) (t : Fin cfg0.N) (h0 : ¬t.val % 86 = 0) (h1 : t.val % 86 = 85) :
    (outsAt0 m c t.val t.isLt).2.2.1 = (prev m c t).2.2.1 := by
  rw [outsAt0_C m c t h0 h1]
  dsimp only
  rfl
theorem C_acc (c : Dev nD) (t : Fin cfg0.N) (h0 : ¬t.val % 86 = 0) (h1 : t.val % 86 = 85) :
    (outsAt0 m c t.val t.isLt).2.2.2 = k0_pay1 (k0_pay8 (prev m c t).2.1 (iblk m c 1 t) (iblk m c 2 t) (prev m c t).2.2.1 (iblk m c 4 t) (iblk m c 5 t) (iblk m c 7 t)) (iblk m c 3 t) (prev m c t).2.2.2 := by
  rw [outsAt0_C m c t h0 h1]
  dsimp only
  exact Pieces.sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
/-- … and scales the finished accumulator into the result block. -/
theorem C_out (c : Dev nD) (t : Fin cfg0.N) (h0 : ¬t.val % 86 = 0) (h1 : t.val % 86 = 85) :
    (outsAt0 m c t.val t.isLt).1 = k0_pay2 (k0_pay7 (iblk m c 7 t)) (k0_pay1 (k0_pay8 (prev m c t).2.1 (iblk m c 1 t) (iblk m c 2 t) (prev m c t).2.2.1 (iblk m c 4 t) (iblk m c 5 t) (iblk m c 7 t)) (iblk m c 3 t) (prev m c t).2.2.2) (iblk m c 6 t) := by
  rw [outsAt0_C m c t h0 h1]
  dsimp only
  exact Pieces.oC8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- The same, over the accumulator the point itself leaves. -/
theorem C_out' (c : Dev nD) (t : Fin cfg0.N) (h0 : ¬t.val % 86 = 0) (h1 : t.val % 86 = 85) :
    (outsAt0 m c t.val t.isLt).1
      = k0_pay2 (k0_pay7 (iblk m c 7 t)) (outsAt0 m c t.val t.isLt).2.2.2 (iblk m c 6 t) := by
  rw [C_acc m c t h0 h1]
  exact C_out m c t h0 h1

end Cert.KernelIdeal.AtPoint

end
-- ==== Proof.Invariant.lean ====
/-
  What the kernel's carried buffers hold after every grid point, and what the result block holds when it is written back.

  Point `n` of the 32 · 86 grid works on rows `256 · (n / 86) + p` and on hidden tile `n % 86`.  After it, the quantised
  block holds those rows quantised by their own scales, the scale column holds those scales, and the accumulator holds, at
  `(p, q)`, the down projection of row `p` onto output `q` summed over the hidden tiles `0 … n % 86` — by induction on the
  point: at hidden tile 0 all three are computed afresh from the activation block and a cleared accumulator, at every
  other point the first two are kept and the accumulator gains one tile.  At hidden tile 85 the accumulator is the whole
  sum over the 11008 hidden entries, and the result block is that sum times the re-quantisation scale times the output's
  scale: the specification's result entry.
-/
import proofs.«151012_j71725953843877_1_alg».proof.Proof.Gen.KernelIdeal.Frame
import proofs.«151012_j71725953843877_1_alg».proof.Proof.Blocks
import proofs.«151012_j71725953843877_1_alg».proof.Proof.Rows
import proofs.«151012_j71725953843877_1_alg».proof.Proof.Steps
import proofs.«151012_j71725953843877_1_alg».proof.Proof.PayVals
import proofs.«151012_j71725953843877_1_alg».proof.Proof.AtPoint
import Idealize.ShloMosaic.Lib.ValueIdx

set_option maxRecDepth 16384

noncomputable section
open scoped BigOperators

namespace Cert.KernelIdeal.Inv

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

section Point

variable (c : Dev nD) (t : Fin cfg0.N)

/-- The blocks a point reads are the argument arrays at the point's rows and hidden tile. -/
theorem hx0 (p : Fin 256) (h : Fin 4096) :
    (iblk m c 0 t : Vec Ideal S256x4096 .f32) (ix2 p h) = aX m c (ix2 (rowAt t.val (lt_N t.isLt) p) h) :=
  (Blocks.blk0 m c t p h _ rfl).trans (congrFun (V_main_arg0 m c) _)
theorem hw1 (k : Fin 128) (h : Fin 4096) (i : Fin 11008) (hi : i.val = t.val % 86 * 128 + k.val) :
    (iblk m c 1 t : Vec Ideal S128x4096 .i32) (ix2 k h) = aWg m c (ix2 i h) :=
  (Blocks.blk1 m c t k h i hi).trans (congrFun (V_main_arg1 m c) _)
theorem hw2 (k : Fin 128) (h : Fin 4096) (i : Fin 11008) (hi : i.val = t.val % 86 * 128 + k.val) :
    (iblk m c 2 t : Vec Ideal S128x4096 .i32) (ix2 k h) = aWu m c (ix2 i h) :=
  (Blocks.blk2 m c t k h i hi).trans (congrFun (V_main_arg2 m c) _)
theorem hw3 (q : Fin 4096) (k : Fin 128) (i : Fin 11008) (hi : i.val = t.val % 86 * 128 + k.val) :
    (iblk m c 3 t : Vec Ideal S4096x128 .i32) (ix2 q k) = aWd m c (ix2 q i) :=
  (Blocks.blk3 m c t q k i hi).trans (congrFun (V_main_arg3 m c) _)
theorem hs4 (u : Fin 1) (k : Fin 128) (i : Fin 11008) (hi : i.val = t.val % 86 * 128 + k.val) :
    (iblk m c 4 t : Vec Ideal S1x128 .f32) (ix2 u k) = aSg m c (ix1 i) :=
  (Blocks.blk4 m c t u k i hi).trans (Blocks.V_v0_apply m c i)
theorem hs5 (u : Fin 1) (k : Fin 128) (i : Fin 11008) (hi : i.val = t.val % 86 * 128 + k.val) :
    (iblk m c 5 t : Vec Ideal S1x128 .f32) (ix2 u k) = aSu m c (ix1 i) :=
  (Blocks.blk5 m c t u k i hi).trans (Blocks.V_v1_apply m c i)
theorem hs6 (u : Fin 1) (q : Fin 4096) :
    (iblk m c 6 t : Vec Ideal S1x4096 .f32) (ix2 u q) = aSd m c (ix1 q) :=
  (Blocks.blk6 m c t u q).trans (Blocks.V_v2_apply m c q)
theorem hs7 (u v : Fin 1) :
    (iblk m c 7 t : Vec Ideal S1x1 .f32) (ix2 u v) = aDs m c (ix1 0) :=
  (Blocks.blk7 m c t u v).trans (Blocks.V_v3_apply m c)

/-- One point's update of the accumulator, whatever quantised block and scales it is handed, provided they are the
    point's rows': the accumulator gains the point's hidden tile. -/
theorem acc_step (xs0 : FVec Ideal S256x4096 .bf16) (xs1 : FVec Ideal S256x1 .f32) (acc : FVec Ideal S256x4096 .f32)
    (hq : ∀ (p : Fin 256) (h : Fin 4096), xs0 (ix2 p h) = QMlp.qRow (aX m c) (rowAt t.val (lt_N t.isLt) p) h)
    (hs : ∀ (p : Fin 256) (u : Fin 1), xs1 (ix2 p u) = QMlp.scaleAt (aX m c) (rowAt t.val (lt_N t.isLt) p))
    (p : Fin 256) (q : Fin 4096) :
    k0_pay1 (F := Ideal) (k0_pay8 (F := Ideal) xs0 (iblk m c 1 t) (iblk m c 2 t) xs1 (iblk m c 4 t) (iblk m c 5 t) (iblk m c 7 t)) (iblk m c 3 t) acc (ix2 p q)
      = acc (ix2 p q) + QMlp.tileSum (aX m c) (aWg m c) (aWu m c) (aWd m c) (aSg m c) (aSu m c) (aDs m c) (rowAt t.val (lt_N t.isLt) p) q (t.val % 86) :=
  Steps.tile_step (aX m c) (aWg m c) (aWu m c) (aWd m c) (aSg m c) (aSu m c) (aDs m c) xs0 xs1 acc (iblk m c 1 t) (iblk m c 2 t) (iblk m c 3 t) (iblk m c 4 t) (iblk m c 5 t) (iblk m c 7 t)
    (rowAt t.val (lt_N t.isLt)) (t.val % 86) (Nat.mod_lt _ (by decide)) hq hs
    (hw1 m c t) (hw2 m c t) (hw3 m c t) (hs4 m c t) (hs5 m c t) (hs7 m c t) p q

end Point

/-- After point `n`: the quantised block and the scale column are those of the point's rows, and the accumulator is
    the down projection over the hidden tiles `0 … n % 86`. -/
structure Holds (c : Dev nD) (n : ℕ) (hn : n < cfg0.N) : Prop where
  q : ∀ (p : Fin 256) (h : Fin 4096), (outsAt0 m c n hn).2.1 (ix2 p h) = QMlp.qRow (aX m c) (rowAt n (lt_N hn) p) h
  s : ∀ (p : Fin 256) (u : Fin 1), (outsAt0 m c n hn).2.2.1 (ix2 p u) = QMlp.scaleAt (aX m c) (rowAt n (lt_N hn) p)
  a : ∀ (p : Fin 256) (q : Fin 4096), (outsAt0 m c n hn).2.2.2 (ix2 p q)
        = QMlp.partialAcc (aX m c) (aWg m c) (aWu m c) (aWd m c) (aSg m c) (aSu m c) (aDs m c) (rowAt n (lt_N hn) p) q (n % 86)

/-- The invariant holds after every point, by induction on the point. -/
theorem inv (c : Dev nD) : ∀ (n : ℕ) (hn : n < cfg0.N), Holds m c n hn := by
  intro n
  induction n using Nat.strong_induction_on with
  | _ n ih =>
    intro hn
    have hN := lt_N hn
    by_cases h0 : n % 86 = 0
    · -- the first point of a row tile: everything is computed afresh from the activation block
      have h1 : ¬n % 86 = 85 := by omega
      have hq : ∀ (p : Fin 256) (h : Fin 4096),
          k0_pay4 (F := Ideal) (iblk m c 0 ⟨n, hn⟩) (ix2 p h) = QMlp.qRow (aX m c) (rowAt n hN p) h :=
        fun p h => Steps.reset_q (aX m c) (iblk m c 0 ⟨n, hn⟩) (rowAt n hN) (hx0 m c ⟨n, hn⟩) p h
      have hs : ∀ (p : Fin 256) (u : Fin 1),
          k0_pay5 (F := Ideal) (iblk m c 0 ⟨n, hn⟩) (ix2 p u) = QMlp.scaleAt (aX m c) (rowAt n hN p) :=
        fun p u => Steps.reset_s (aX m c) (iblk m c 0 ⟨n, hn⟩) (rowAt n hN) (hx0 m c ⟨n, hn⟩) p u
      refine ⟨fun p h => ?_, fun p u => ?_, fun p q => ?_⟩
      · exact (congrFun (AtPoint.A_q m c ⟨n, hn⟩ h0 h1) _).trans (hq p h)
      · exact (congrFun (AtPoint.A_s m c ⟨n, hn⟩ h0 h1) _).trans (hs p u)
      · refine (congrFun (AtPoint.A_acc m c ⟨n, hn⟩ h0 h1) _).trans ?_
        refine (acc_step m c ⟨n, hn⟩ _ _ _ hq hs p q).trans ?_
        rw [PayVals.pay6_apply]
        show QMlp.zero + QMlp.tileSum (aX m c) (aWg m c) (aWu m c) (aWd m c) (aSg m c) (aSu m c) (aDs m c) (rowAt n hN p) q (n % 86)
          = QMlp.partialAcc (aX m c) (aWg m c) (aWu m c) (aWd m c) (aSg m c) (aSu m c) (aDs m c) (rowAt n hN p) q (n % 86)
        rw [h0]
        rfl
    · -- a later point of the row tile: the quantised block and the scales are kept, the accumulator gains a tile
      have hpos : n - 1 < n := by omega
      have hn' : n - 1 < cfg0.N := Nat.lt_of_le_of_lt (Nat.sub_le _ _) hn
      have ihp := ih (n - 1) hpos hn'
      have hrow : ∀ p : Fin 256, rowAt (n - 1) (lt_N hn') p = rowAt n hN p := rowAt_pred n hN (lt_N hn') h0
      have hq : ∀ (p : Fin 256) (h : Fin 4096),
          (AtPoint.prev m c ⟨n, hn⟩).2.1 (ix2 p h) = QMlp.qRow (aX m c) (rowAt n hN p) h :=
        fun p h => (ihp.q p h).trans (by rw [hrow])
      have hs : ∀ (p : Fin 256) (u : Fin 1),
          (AtPoint.prev m c ⟨n, hn⟩).2.2.1 (ix2 p u) = QMlp.scaleAt (aX m c) (rowAt n hN p) :=
        fun p u => (ihp.s p u).trans (by rw [hrow])
      have hmod : n % 86 = (n - 1) % 86 + 1 := by omega
      have hacc : ∀ (p : Fin 256) (q : Fin 4096),
          (AtPoint.prev m c ⟨n, hn⟩).2.2.2 (ix2 p q) + QMlp.tileSum (aX m c) (aWg m c) (aWu m c) (aWd m c) (aSg m c) (aSu m c) (aDs m c) (rowAt n hN p) q (n % 86)
            = QMlp.partialAcc (aX m c) (aWg m c) (aWu m c) (aWd m c) (aSg m c) (aSu m c) (aDs m c) (rowAt n hN p) q (n % 86) := fun p q => by
        have e := ihp.a p q
        rw [hrow] at e
        show (outsAt0 m c (n - 1) hn').2.2.2 (ix2 p q) + _ = _
        rw [e, hmod]
        rfl
      by_cases h1 : n % 86 = 85
      · refine ⟨fun p h => ?_, fun p u => ?_, fun p q => ?_⟩
        · exact (congrFun (AtPoint.C_q m c ⟨n, hn⟩ h0 h1) _).trans (hq p h)
        · exact (congrFun (AtPoint.C_s m c ⟨n, hn⟩ h0 h1) _).trans (hs p u)
        · refine (congrFun (AtPoint.C_acc m c ⟨n, hn⟩ h0 h1) _).trans ?_
          exact (acc_step m c ⟨n, hn⟩ _ _ _ hq hs p q).trans (hacc p q)
      · refine ⟨fun p h => ?_, fun p u => ?_, fun p q => ?_⟩
        · exact (congrFun (AtPoint.B_q m c ⟨n, hn⟩ h0 h1) _).trans (hq p h)
        · exact (congrFun (AtPoint.B_s m c ⟨n, hn⟩ h0 h1) _).trans (hs p u)
        · refine (congrFun (AtPoint.B_acc m c ⟨n, hn⟩ h0 h1) _).trans ?_
          exact (acc_step m c ⟨n, hn⟩ _ _ _ hq hs p q).trans (hacc p q)

/-- At a row tile's last point the result block holds the specification's result entries of the point's rows. -/
theorem out_eq (c : Dev nD) (t : Fin cfg0.N) (h1 : t.val % 86 = 85) (p : Fin 256) (q : Fin 4096) :
    (outsAt0 m c t.val t.isLt).1 (ix2 p q)
      = QMlp.outAt (aX m c) (aWg m c) (aWu m c) (aWd m c) (aSg m c) (aSu m c) (aDs m c) (aSd m c) (rowAt t.val (lt_N t.isLt) p) q := by
  have h0 : ¬t.val % 86 = 0 := by omega
  refine (congrFun (AtPoint.C_out' m c t h0 h1) _).trans ?_
  refine (Steps.out_step (outsAt0 m c t.val t.isLt).2.2.2 (iblk m c 6 t) (iblk m c 7 t) (aSd m c) (aDs m c)
    (hs6 m c t) (hs7 m c t) p q).trans ?_
  rw [(inv m c t.val t.isLt).a p q, h1, QMlp.partialAcc_last]
  rfl

end Cert.KernelIdeal.Inv

end
-- ==== Proof.KValue.lean ====
/-
  From the blocks the grid writes back to the whole result array.

  The grid has 32 · 86 points; point `t` works on row tile `t / 86` and hidden tile `t % 86`. The result window's
  block at `t` is rows `256 · (t / 86) … 256 · (t / 86) + 255` of the result array, all 4096 columns, and it is written
  back only at the last point of a row tile, `t % 86 = 85`: there the block holds, at `(p, q)`, the specification's
  entry `(256 · (t / 86) + p, q)` — the accumulated down projection scaled by the two result scales. So what a
  write-back writes is the block of ONE function of the array's index, the specification's result array.

  Row `r` of the array lies in row tile `r / 256`, whose last point is `86 · (r / 256) + 85`; that point writes back,
  and its block contains row `r` with every column. The 32 blocks written back are the 32 row tiles: they cover the
  array, so after the run the array IS the specification's result array.
-/
import proofs.«151012_j71725953843877_1_alg».proof.Proof.Gen.KernelIdeal.Value
import proofs.«151012_j71725953843877_1_alg».proof.Proof.Blocks
import proofs.«151012_j71725953843877_1_alg».proof.Proof.Rows
import proofs.«151012_j71725953843877_1_alg».proof.Proof.Invariant
import Idealize.ShloMosaic.Lib.Pipeline.Value
import Idealize.ShloMosaic.Lib.ValueIdx

-- membership in a rectangle of extents 8192 × 4096: structural recursion once per coordinate
set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- WHAT A WRITE-BACK WRITES: at a point `t` with `t % 86 = 85` the result window's staging buffer holds, at `(p, q)`,
    the specification's entry at row `256 · (t / 86) + p` and column `q`, which is where the block's `(p, q)` sits in the
    array: the written block is the block of the specification's result array. -/
theorem flushed_eq (c : Dev nD) (t : Fin cfg0.N) (hf : (cfg0.win 8).flush t = true) :
    (dats m 0 c).flushed 8 t = ((cfg0.win 8).blk t).view.read (Elt Ideal) (Inv.Gm m c) := by
  have h1 : t.val % 86 = 85 := (flush0_8 t).mp hf
  rw [Cert.KernelIdeal.Value.flushed8 m c t]
  funext y
  obtain ⟨p, q, rfl⟩ : ∃ (p : Fin 256) (q : Fin 4096), y = ix2 p q := ⟨y 0, y 1, eq_ix2 y⟩
  rw [View.read_apply, Blocks.emb8 t p q (Inv.rowAt t.val (Inv.lt_N t.isLt) p) (Inv.rowAt_val _ _ p)]
  show (outsAt0 m c t.val t.isLt).1 (ix2 p q) = Inv.Gm m c (ix2 (Inv.rowAt t.val (Inv.lt_N t.isLt) p) q)
  exact Inv.out_eq m c t h1 p q

/-- THE COVER: row `i 0` of the array is in row tile `(i 0) / 256`; the last point of that tile, `86 · ((i 0) / 256) + 85`,
    writes back, and its block is rows `256 · ((i 0) / 256) … + 255` and all 4096 columns, so it contains `i`. -/
theorem cover (i : S8192x4096.Idx) :
    ∃ t : Fin cfg0.N, (cfg0.win 8).flush t = true ∧ i ∈ ((cfg0.win 8).blk t).view.set := by
  have hN : cfg0.N = 2752 := N_0
  have hi0 : (i 0).val < 8192 := (i 0).isLt
  have hi1 : (i 1).val < 4096 := (i 1).isLt
  obtain ⟨t, ht⟩ : ∃ t : Fin cfg0.N, t.val = 86 * ((i 0).val / 256) + 85 :=
    ⟨⟨86 * ((i 0).val / 256) + 85, by rw [hN]; omega⟩, rfl⟩
  refine ⟨t, (flush0_8 t).mpr (by omega), ?_⟩
  obtain ⟨-, -, -, -, -, -, -, -, -, -, -, -, -, -, -, -, e0, e1⟩ := Blocks.idx_facts t
  show i ∈ ((View.whole main_v4).slice (win0_8.rect t)).set
  rw [View.set_slice_whole, Rect.mem_set_unit]
  intro a
  match a with
  | ⟨0, _⟩ =>
    show win0_8.index t (0 : Fin 2) * 256 ≤ (i 0).val ∧ (i 0).val < win0_8.index t (0 : Fin 2) * 256 + 256
    rw [e0]; omega
  | ⟨1, _⟩ =>
    show win0_8.index t (1 : Fin 2) * 4096 ≤ (i 1).val ∧ (i 1).val < win0_8.index t (1 : Fin 2) * 4096 + 4096
    rw [e1]; omega

/-- So the result array ends holding the specification's result array of the argument arrays. -/
theorem final (c : Dev nD) : (dats m 0 c).arrAt 8 cfg0.N = Inv.Gm m c :=
  (dats m 0 c).arrAt_eq_of_cover 8 (Inv.Gm m c) (flushed_eq m c) cover

/-- The run, read: the result array at the specification, the eight arguments unchanged. -/
theorem run : θ_run defs (onTc (τ := τ) (main (F := Ideal))) ⟨m, fun _ => 0, ρ⟩ fun r => ∀ c : Dev nD,
      r.2.mem ((c : Thread nD τ).loc main_v4) = Inv.Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.KValue

end
-- ==== Proof.Claims.lean ====
/-
  The five claims, assembled.

  The kernel as printed and its idealization run and leave their arguments unchanged (their generated frames); so does
  the reference (its generated run, the result forgotten).  The one idealization names the constant nearest 1/127, and
  the name denotes 1/127.  At the ideal values, from arguments that agree, both programs end at one array, the
  specification `QMlp.G` of the arguments: the kernel by its run, whose sum over the 11008 hidden entries is taken as
  86 tiles of 128, the reference by its operations read one at a time, whose quotient by 127 is the product with 1/127.
-/
import proofs.«151012_j71725953843877_1_alg».proof.Defs
import proofs.«151012_j71725953843877_1_alg».proof.Proof.Gen.Kernel.Frame
import proofs.«151012_j71725953843877_1_alg».proof.Proof.Gen.Pre_finite_inputs
import proofs.«151012_j71725953843877_1_alg».proof.Proof.Gen.KernelIdeal.Value
import proofs.«151012_j71725953843877_1_alg».proof.Proof.Gen.ReferenceIdeal.Run
import proofs.«151012_j71725953843877_1_alg».proof.Proof.Gen.ReferenceIdeal.Read
import proofs.«151012_j71725953843877_1_alg».proof.Proof.Rows
import proofs.«151012_j71725953843877_1_alg».proof.Proof.RefValue
import proofs.«151012_j71725953843877_1_alg».proof.Proof.KValue

noncomputable section

open Idealize.ShloMosaic Idealize.ShloMosaic.TcCoe Idealize.SL.Sem

namespace Cert.Proof.Claims

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The one idealization: the constant nearest 1/127 is named, and the name denotes 1/127. -/
theorem preserves : Cert.preserves_Kernel_KernelIdeal :=
  IdealRules.named_const.statement Cert.KernelIdeal.κ "inv_127" .f32 0x3C010204#32 ((1 / 127 : ℝ) : EReal) rfl

/-- From arguments that agree, the idealized kernel and the reference both end at the specification of those
    arguments: the kernel by its run, the reference by reading its operations one at a time. -/
theorem algebraic : Cert.algebraic_KernelIdeal_ReferenceIdeal := by
  intro m ρ m' ρ' _ hagree
  refine ⟨fun c => Cert.KernelIdeal.Inv.Gm m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v38_eq m' c).trans ?_
  refine (Cert.ReferenceIdeal.RefValue.ref_eq _ _ _ _ _ _ _ _).trans ?_
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]

end Cert.Proof.Claims

end
-- ==== Proof.lean ====
/- A quantised gated network over the extended reals: a row of 4096 activations is scaled by its largest magnitude over
   127, rounded and clipped; gate and up projections combine as (g · logistic g) · u, are re-quantised, and projected down.
   Two laws join the kernel to the reference: the sum over 11008 hidden entries is the sum over 86 tiles of 128 entries,
   and the product with the constant named 1/127 is the quotient by 127.  Proof/Claims.lean assembles the five claims. -/
import proofs.«151012_j71725953843877_1_alg».proof.Defs
import proofs.«151012_j71725953843877_1_alg».proof.Proof.Gen.Kernel
import proofs.«151012_j71725953843877_1_alg».proof.Proof.Gen.Kernel.Skeleton
import proofs.«151012_j71725953843877_1_alg».proof.Proof.Gen.Kernel.Launch
import proofs.«151012_j71725953843877_1_alg».proof.Proof.Gen.Kernel.Points
import proofs.«151012_j71725953843877_1_alg».proof.Proof.Gen.Kernel.Frame
import proofs.«151012_j71725953843877_1_alg».proof.Proof.Gen.KernelIdeal
import proofs.«151012_j71725953843877_1_alg».proof.Proof.Gen.KernelIdeal.Skeleton
import proofs.«151012_j71725953843877_1_alg».proof.Proof.Gen.KernelIdeal.Launch
import proofs.«151012_j71725953843877_1_alg».proof.Proof.Gen.KernelIdeal.Points
import proofs.«151012_j71725953843877_1_alg».proof.Proof.Gen.KernelIdeal.Frame
import proofs.«151012_j71725953843877_1_alg».proof.Proof.Gen.ReferenceIdeal
import proofs.«151012_j71725953843877_1_alg».proof.Proof.Gen.Pre_finite_inputs
import proofs.«151012_j71725953843877_1_alg».proof.Proof.Gen.KernelIdeal.Value
import proofs.«151012_j71725953843877_1_alg».proof.Proof.Gen.ReferenceIdeal.Run
import proofs.«151012_j71725953843877_1_alg».proof.Proof.Gen.ReferenceIdeal.Read
import proofs.«151012_j71725953843877_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
